-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1x4096 : Shape := ⟨2, ![1, 4096]⟩
abbrev S512x4096 : Shape := ⟨2, ![512, 4096]⟩
abbrev S4096 : Shape := ⟨1, ![4096]⟩
abbrev S4096x1 : Shape := ⟨2, ![4096, 1]⟩
abbrev S1x256 : Shape := ⟨2, ![1, 256]⟩
abbrev S256x4096 : Shape := ⟨2, ![256, 4096]⟩
abbrev S256x1 : Shape := ⟨2, ![256, 1]⟩
abbrev S256 : Shape := ⟨1, ![256]⟩
abbrev S1x1 : Shape := ⟨2, ![1, 1]⟩
abbrev S512x1 : Shape := ⟨2, ![512, 1]⟩
abbrev S1x512x4096 : Shape := ⟨3, ![1, 512, 4096]⟩
abbrev S1 : Shape := ⟨1, ![1]⟩
abbrev S1x1x1 : Shape := ⟨3, ![1, 1, 1]⟩
abbrev S_ : Shape := ⟨0, ![]⟩

abbrev nBuf : Space → Nat
  | .hbm => 11
  | .vmem => 21
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S1x4096, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x256, .f32⟩
  | .local _ .vmem, ⟨4, _⟩ => ⟨S1x256, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S1x4096, .f32⟩
  | .local _ .vmem, ⟨20, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k0_cond2 (i : grid0.Coords) : BitVec 1 :=
  let arg0 : BitVec 32 := BitVec.ofNat 32 (i 0).val
  let c0_i32_2 : BitVec 32 := 0#32
  let v6 : BitVec 1 := Scalar.cmpi .ne arg0 c0_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_6 : BitVec 32 := 0#32
  let v21 : BitVec 1 := Scalar.cmpi .ne v20 c0_i32_6
  v21

def k2_cond2 (i : grid2.Coords) : BitVec 1 :=
  let arg0 : BitVec 32 := BitVec.ofNat 32 (i 0).val
  let c0_i32_7 : BitVec 32 := 0#32
  let v22 : BitVec 1 := Scalar.cmpi .ne arg0 c0_i32_7
  let v23 : BitVec 32 := Scalar.extui v22
  let c0_i32_8 : BitVec 32 := 0#32
  let v24 : BitVec 1 := Scalar.cmpi .ne v23 c0_i32_8
  v24

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  inb_S512x4096_S512x4096_0_0 : ∀ a, (![0, 0] : Fin 2 → Nat) a + S512x4096.size a ≤ S512x4096.size a
  h_S512x4096 : 0 < S512x4096.numel
  reduces_S512x4096_S4096 : S512x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S1x256_p1_0_S256x1 : S1x256.Transposes [1, 0] S256x1
  broadcasts_S256x1_S256x4096 : S256x1.Broadcasts S256x4096
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  transposes_S4096x1_S1x4096_1_0 : S4096x1.Transposes [1, 0] S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  broadcasts_S1x4096_S512x4096 : S1x4096.Broadcasts S512x4096
  shapeCasts_S512x4096_S1x512x4096 : S512x4096.ShapeCasts S1x512x4096
  reduces_S1x512x4096_S1 : S1x512x4096.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256.size a ≤ S1x4096.size a
  hwx1_0 : ∀ i : grid1.Coords, EltTy.bits .f32 = 32 ∨ (Rect.block (s := S1x4096) S1x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .f32 = 32 ∨ (Rect.block (s := S4096x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S4096x1.size a
  hwx1_3 : ∀ i : grid1.Coords, EltTy.bits .f32 = 32 ∨ (Rect.block (s := S4096x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S4096x1.size a
  hwx1_4 : ∀ i : grid1.Coords, EltTy.bits .f32 = 32 ∨ (Rect.block (s := S4096x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S4096x1.size a
  hwx1_5 : ∀ i : grid1.Coords, EltTy.bits .f32 = 32 ∨ (Rect.block (s := S4096x1) S256x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1.size a ≤ S4096x1.size a
  hwx2_0 : ∀ i : grid2.Coords, EltTy.bits .f32 = 32 ∨ (Rect.block (s := S4096x1) S512x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1.size a ≤ S4096x1.size a
  hwx2_1 : ∀ i : grid2.Coords, EltTy.bits .f32 = 32 ∨ (Rect.block (s := S4096x1) S512x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x4096.size a
  hwx2_2 : ∀ i : grid2.Coords, EltTy.bits .f32 = 32 ∨ (Rect.block (s := S1x4096) S1x4096.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)

variable [Facts₀]

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_v0) S1x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S256x1.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S256x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_2) S256x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v1_0) S512x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S512x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond1 i == 1#1) && !(k2_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x1, .f32⟩
  | .hbm, ⟨38, _⟩ => ⟨S4096x4096, .f32⟩
  | .hbm, ⟨39, _⟩ => ⟨S4096x4096, .f32⟩
  | .hbm, ⟨40, _⟩ => ⟨S4096x4096, .i1⟩
  | .hbm, ⟨41, _⟩ => ⟨S_, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_call0_v0 : Ref sig .tc := ⟨.hbm, 42, rfl⟩
abbrev main_call0_v1 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  reducesTo_S4096x4096_S4096_d0 : S4096x4096.ReducesTo [0] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_

variable [Facts₀]

class Facts : Prop extends Facts₀ where

variable [Facts]
-- ==== Proof.K.Region0.lean ====
/-
  Region 0: the running column maximum.  At grid point t the body reads rows 512 t .. 512 t + 511 of the target
  (window 0) and leaves in the resident (1, 4096) output buffer (window 1) the block's column maxima at the first
  point, and at every later point the entrywise maximum of what the buffer held and the block's column maxima.
  This module states what the two windows' staging buffers hold after the body at each point (the input its
  block; the output by recursion on the point) and proves the body's triple at every point, at any float
  instance.  The condition table of the output window (idle where neither branch is taken) is false at every
  coordinate, since one of the two branches is taken at each.
  This is the same argument for the program as printed at the word level: every statement here is at any float
  instance, and the printed program differs from the idealized one in its float instance alone.
-/
import proofs.«173938_j1580547974629_1_alg».proof.Proof.Gen.Kernel.Launch
import proofs.«173938_j1580547974629_1_alg».proof.Proof.Gen.Kernel.Skeleton
import proofs.«173938_j1580547974629_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions over the grid -/

/-- The first branch is taken at the first point only. -/
theorem hcond0_1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second branch is taken at every other point. -/
theorem hcond0_2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- One of the two branches is taken at every coordinate: the output window is idle nowhere. -/
theorem hidle0_1 : ∀ i : grid0.Coords, cfg0.idle 1 i = false := by decide +kernel

/-- One staging buffer of the output window, through which its contents are stated. -/
abbrev VO0_1 : View sig .tc .vmem S1x4096 .f32 := (Memref.whole cc0_stg1_0 : Memref sig .tc .vmem S1x4096 .f32).view
/-- Each window's current staging memref at point `t`, and its wholeness. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)

/-! ## The body's run in each case -/

set_option maxHeartbeats 1000000 in
/-- The first point: the output buffer, at any contents, ends with the stored pieces. -/
noncomputable def kernelRun0_A (c : Dev nD) (i : grid0.Coords) (arg1 : Memref sig .tc .vmem S512x4096 .f32) (harg1 : arg1.IsWhole) (arg2 : Memref sig .tc .vmem S1x4096 .f32) (harg2 : arg2.IsWhole)
    (hc1 : k0_cond1 i = 1#1) (hc2 : ¬ k0_cond2 i = 1#1) (x0 : Vec F S512x4096 .f32) :
    { L1 : List (View.Piece (Elt F) S1x4096 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__colmax_kernel i arg1 harg1 arg2 harg2) K } := by
  refine ⟨?_, fun E K => ?run⟩
  case run =>
    simp only [cc0__colmax_kernel_eq_skeleton]; unfold cc0__colmax_kernel_skel
    unfold owns
    iintro ⟨⟨%f0, %hf0, H0⟩, ⟨%d1, %f1, -, H1⟩, Hk⟩
    obtain rfl := harg1.eq_unread hf0
    sl_exec (disch := first | exact hc1 | exact hc2)
    sl_step
    iapply Hk
    isplitl [H0]
    · iexists _; isplitr; · ipureintro; exact harg1.read_unread _
      iexact H0
    iexists _; iexact H1

set_option maxHeartbeats 1000000 in
/-- A later point: the output buffer, at its running contents `xo1`, ends with the stored pieces. -/
noncomputable def kernelRun0_B (c : Dev nD) (i : grid0.Coords) (arg1 : Memref sig .tc .vmem S512x4096 .f32) (harg1 : arg1.IsWhole) (arg2 : Memref sig .tc .vmem S1x4096 .f32) (harg2 : arg2.IsWhole)
    (hc1 : ¬ k0_cond1 i = 1#1) (hc2 : k0_cond2 i = 1#1) (x0 : Vec F S512x4096 .f32) (xo1 : Vec F S1x4096 .f32) :
    { L1 : List (View.Piece (Elt F) S1x4096 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__colmax_kernel i arg1 harg1 arg2 harg2) K } := by
  refine ⟨?_, fun E K => ?run⟩
  case run =>
    simp only [cc0__colmax_kernel_eq_skeleton]; unfold cc0__colmax_kernel_skel
    unfold owns
    iintro ⟨⟨%f0, %hf0, H0⟩, ⟨%f1, %hf1, H1⟩, Hk⟩
    obtain rfl := harg1.eq_unread hf0; obtain rfl := harg2.eq_unread hf1
    sl_exec (disch := first | exact hc1 | exact hc2)
    sl_step
    iapply Hk
    isplitl [H0]
    · iexists _; isplitr; · ipureintro; exact harg1.read_unread _
      iexact H0
    iexists _; iexact H1

/-! ## What each case leaves in the output buffer -/

theorem cover0_A_1 (c : Dev nD) (i : grid0.Coords) (arg1 : Memref sig .tc .vmem S512x4096 .f32) (harg1 : arg1.IsWhole) (arg2 : Memref sig .tc .vmem S1x4096 .f32) (harg2 : arg2.IsWhole)
    (hc1 : k0_cond1 i = 1#1) (hc2 : ¬ k0_cond2 i = 1#1) (x0 : Vec F S512x4096 .f32) (y : S1x4096.Idx) :
    ∃ pc ∈ (kernelRun0_A c i arg1 harg1 arg2 harg2 hc1 hc2 x0).1, y ∈ pc.1.set :=
  View.cover_of_tiledL (kernelRun0_A c i arg1 harg1 arg2 harg2 hc1 hc2 x0).1 S1x4096.size (by sl_kernel_rfl) y

/-- What the first point leaves in the output buffer: its pieces read back. -/
def out0_A_1 (c : Dev nD) (i : grid0.Coords) (arg1 : Memref sig .tc .vmem S512x4096 .f32) (harg1 : arg1.IsWhole) (arg2 : Memref sig .tc .vmem S1x4096 .f32) (harg2 : arg2.IsWhole)
    (hc1 : k0_cond1 i = 1#1) (hc2 : ¬ k0_cond2 i = 1#1) (x0 : Vec F S512x4096 .f32) : Vec F S1x4096 .f32 :=
  VO0_1.read (Elt F) (VO0_1.writes (Elt F) VO0_1.junk (kernelRun0_A c i arg1 harg1 arg2 harg2 hc1 hc2 x0).1)

theorem cover0_B_1 (c : Dev nD) (i : grid0.Coords) (arg1 : Memref sig .tc .vmem S512x4096 .f32) (harg1 : arg1.IsWhole) (arg2 : Memref sig .tc .vmem S1x4096 .f32) (harg2 : arg2.IsWhole)
    (hc1 : ¬ k0_cond1 i = 1#1) (hc2 : k0_cond2 i = 1#1) (x0 : Vec F S512x4096 .f32) (xo1 : Vec F S1x4096 .f32) (y : S1x4096.Idx) :
    ∃ pc ∈ (kernelRun0_B c i arg1 harg1 arg2 harg2 hc1 hc2 x0 xo1).1, y ∈ pc.1.set :=
  View.cover_of_tiledL (kernelRun0_B c i arg1 harg1 arg2 harg2 hc1 hc2 x0 xo1).1 S1x4096.size (by sl_kernel_rfl) y

/-- What a later point leaves in the output buffer: its pieces read back. -/
def out0_B_1 (c : Dev nD) (i : grid0.Coords) (arg1 : Memref sig .tc .vmem S512x4096 .f32) (harg1 : arg1.IsWhole) (arg2 : Memref sig .tc .vmem S1x4096 .f32) (harg2 : arg2.IsWhole)
    (hc1 : ¬ k0_cond1 i = 1#1) (hc2 : k0_cond2 i = 1#1) (x0 : Vec F S512x4096 .f32) (xo1 : Vec F S1x4096 .f32) : Vec F S1x4096 .f32 :=
  VO0_1.read (Elt F) (VO0_1.writes (Elt F) VO0_1.junk (kernelRun0_B c i arg1 harg1 arg2 harg2 hc1 hc2 x0 xo1).1)

/-! ## What the output buffer holds after each point -/

/-- The accumulation: after point `n` the output buffer holds the first case's contents at `n = 0`, and otherwise the
    second case's over what point `n - 1` left. -/
def outsAt0 (c : Dev nD) : (n : ℕ) → n < cfg0.N → Vec F S1x4096 .f32
  | 0, hn => out0_A_1 c (grid0.coords ⟨0, hn⟩) (ms0_0 ⟨0, hn⟩) (hs0_0 ⟨0, hn⟩) (ms0_1 ⟨0, hn⟩) (hs0_1 ⟨0, hn⟩)
      ((hcond0_1 ⟨0, hn⟩).mpr (Nat.zero_mod _)) (fun h => (hcond0_2 ⟨0, hn⟩).mp h (Nat.zero_mod _)) (iblk0 V c 0 ⟨0, hn⟩)
  | n + 1, hn =>
    if h0 : (n + 1) % 8 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩)
        ((hcond0_1 ⟨n + 1, hn⟩).mpr h0) (fun h => (hcond0_2 ⟨n + 1, hn⟩).mp h h0) (iblk0 V c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩)
        (fun h => h0 ((hcond0_1 ⟨n + 1, hn⟩).mp h)) ((hcond0_2 ⟨n + 1, hn⟩).mpr h0) (iblk0 V c 0 ⟨n + 1, hn⟩) (outsAt0 c n (Nat.lt_of_succ_lt hn))

theorem outsAt0_A (c : Dev nD) (t : Fin cfg0.N) (h0 : t.val % 8 = 0) :
    outsAt0 V c t.val t.isLt = out0_A_1 c (grid0.coords t) (ms0_0 t) (hs0_0 t) (ms0_1 t) (hs0_1 t)
      ((hcond0_1 t).mpr h0) (fun h => (hcond0_2 t).mp h h0) (iblk0 V c 0 t) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = out0_B_1 c (grid0.coords t) (ms0_0 t) (hs0_0 t) (ms0_1 t) (hs0_1 t)
      (fun h => h0 ((hcond0_1 t).mp h)) ((hcond0_2 t).mpr h0) (iblk0 V c 0 t)
      (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at point `t` the input's buffer at its block and the
    output's at `outsAt0`; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-- At a later point the output's buffer holds what the body left at the point before: it is not written back
    between, and the window is live and uncut. -/
theorem before0_1_B (c : Dev nD) (t : Fin cfg0.N) (h0 : ¬t.val % 8 = 0) (d) :
    (dat0 V c).before 1 t d = (outsAt0 V c (t.val - 1) (Nat.lt_of_le_of_lt (Nat.sub_le _ _) t.isLt)) := by
  have hN : t.val < 8 := lt_of_lt_of_eq t.isLt (show cfg0.N = 8 from N_0)
  rw [Dat.before_out_kept _ 1 rfl t (by omega) (Bool.eq_false_iff.mpr fun h => by have := (flush0_1 _).mp h; dsimp only at this; omega)
    hidle0_1 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 8 := lt_of_lt_of_eq t.isLt (show cfg0.N = 8 from N_0)
  by_cases h0 : t.val % 8 = 0
  · rw [outsAt0_A V c t h0]
    unfold out0_A_1
    iintro ⟨HΦ, Ho, ⟨%d0, H0⟩, ⟨%d1, H1⟩⟩
    iapply ((kernelRun0_A c (grid0.coords t) _ _ _ _ ((hcond0_1 t).mpr h0) (fun h => (hcond0_2 t).mp h h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · rw [outsAt0_B V c t h0]
    simp only [before0_1_B V c t h0]
    unfold out0_B_1
    iintro ⟨HΦ, Ho, ⟨%d0, H0⟩, ⟨%d1, H1⟩⟩
    iapply ((kernelRun0_B c (grid0.coords t) _ _ _ _ (fun h => h0 ((hcond0_1 t).mp h)) ((hcond0_2 t).mpr h0) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _ _)

/-- The body obligation at every point: the windows opened one by one, the output window's idle table false. -/
theorem body_obligation0 (c : Dev nD) : BodyObligation (dat0 (F := F) V c) (defs₀ (F := F)) Variants.none () Set.univ := fun t => by
  rw [bigSep_W0, bigSep_W0]
  rw [hidle0_1 (cfg0.grid.coords t)]
  exact sound_body0 V c t

end Cert.Kernel.Frm

end
-- ==== Proof.K.Region1.lean ====
/-
  Region 1 of the kernel (the row statistics), at the buffer contents V the region is entered with.

  Per block of 256 rows the body reads three blocks (the 1 x 256 block of the column maxima, the 256 x 4096 blocks of
  the input and of the target) and stores three 256 x 1 columns: the gated sum of minima doubled, the row sums of the
  input, the row sums of the target. Here: each window's block at a point, what the body leaves in each output
  buffer as one covering piece over the skeleton's payloads, the body's triple, the proof data and the body obligation.
  This is the same argument for the program as printed at the word level: every statement here is at any float
  instance, and the printed program differs from the idealized one in its float instance alone.
-/
import proofs.«173938_j1580547974629_1_alg».proof.Proof.Gen.Kernel.Launch
import proofs.«173938_j1580547974629_1_alg».proof.Proof.Gen.Kernel.Skeleton
import proofs.«173938_j1580547974629_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s
    and whose body leaves the block in place: the window is fetched at every point, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1 x 256 block. -/
abbrev r1_0 : Rect S1x256 := Rect.unit (s := S1x256) ![0, 0] S1x256.size inb_S1x256_S1x256_0_0
/-- The whole 256 x 4096 block. -/
abbrev r1_1 : Rect S256x4096 := Rect.unit (s := S256x4096) ![0, 0] S256x4096.size inb_S256x4096_S256x4096_0_0
/-- The whole 256 x 1 column. -/
abbrev r1_2 : Rect S256x1 := Rect.unit (s := S256x1) ![0, 0] S256x1.size inb_S256x1_S256x1_0_0

/-! ## What the body leaves in each output window's buffer -/

/-- Window 3's staging buffer after the body, from the input windows' blocks (`x0` the maxima block, `x1` the input
    block, `x2` the target block): its one store as a piece. -/
def out1_3 (x0 : Vec F S1x256 .f32) (x1 : Vec F S256x4096 .f32) (x2 : Vec F S256x4096 .f32) : Vec F S256x1 .f32 :=
  View.canon [⟨r1_2, k1_pay1 (View.ld x2 r1_1) (View.ld x1 r1_1) (View.ld x0 r1_0)⟩]
/-- Window 4's staging buffer after the body: the row sums of the input block. -/
def out1_4 (x1 : Vec F S256x4096 .f32) : Vec F S256x1 .f32 :=
  View.canon [⟨r1_2, k1_pay2 (View.ld x1 r1_1)⟩]
/-- Window 5's staging buffer after the body: the row sums of the target block. -/
def out1_5 (x2 : Vec F S256x4096 .f32) : Vec F S256x1 .f32 :=
  View.canon [⟨r1_2, k1_pay3 (View.ld x2 r1_1)⟩]

/-- One store of the whole column tiles it, so it covers it. -/
theorem cover1_3 (p0 : Vec F S256x1 .f32) (y : S256x1.Idx) :
    ∃ pc ∈ ([⟨r1_2, p0⟩] : List (View.Piece (Elt F) S256x1 .f32)), y ∈ pc.1.set :=
  View.cover_of_tiled [⟨r1_2, p0⟩] S256x1.size (by rfl) y
theorem cover1_4 (p0 : Vec F S256x1 .f32) (y : S256x1.Idx) :
    ∃ pc ∈ ([⟨r1_2, p0⟩] : List (View.Piece (Elt F) S256x1 .f32)), y ∈ pc.1.set :=
  cover1_3 p0 y
theorem cover1_5 (p0 : Vec F S256x1 .f32) (y : S256x1.Idx) :
    ∃ pc ∈ ([⟨r1_2, p0⟩] : List (View.Piece (Elt F) S256x1 .f32)), y ∈ pc.1.set :=
  cover1_3 p0 y

/-! ## The body's triple -/

set_option maxHeartbeats 4000000 in
/-- The kernel body on whole staging memrefs, the inputs' at read contents `xW` and the outputs' at anything, runs to
    the continuation holding the inputs' as they were and each output's at `out1_W` of the inputs'. -/
theorem sound_kernel1 (c : Dev nD) (E : Set ℕ) (i : grid1.Coords)
    (arg1 : Memref sig .tc .vmem S1x256 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (x0 : Vec F S1x256 .f32) (x1 : Vec F S256x4096 .f32) (x2 : Vec F S256x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x1)
            ∗ owns (c : Thread nD τ) arg6 fullShare (out1_5 x2)) -∗ K ⟨⟩))
      ⊢ wp frame (wpE (defs₀ (F := F)) Variants.none c none) E (cc1__rowstats_kernel i arg1 harg1 arg2 harg2 arg3 harg3 arg4 harg4 arg5 harg5 arg6 harg6) K := by
  simp only [cc1__rowstats_kernel_eq_skeleton]; unfold cc1__rowstats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of pipeline 1 on core `c`: the arrays as the region finds them (`V`); after the body at point `t`
    each input's buffer at its block and each output's at `out1_W` of the input blocks; the class invariant (the scoped
    rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 1 t)
    | ⟨5, _⟩ => out1_5 (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 1 t) := by dsimp only [dat1]
theorem after1_5 (c : Dev nD) (t : Fin cfg1.N) : (dat1 V c).after 5 t = out1_5 (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.K.Region2.lean ====
/-
  Region 2: the running total.  At grid point t the body reads rows 512 t .. 512 t + 511 of the two column vectors
  num (window 0) and row_in (window 1) and the whole row vector row_tg (window 2, fetched once), and leaves in the
  resident (1, 1) output buffer (window 3) the block's sum of quotients at the first point, and at every later point
  what the buffer held plus the block's sum.  This module states what the four windows' staging buffers hold after
  the body at each point (each input its block; the output by recursion on the point) and proves the body's triple at
  every point, at any float instance.  The condition table of the output window is false at every coordinate.
  This is the same argument for the program as printed at the word level: every statement here is at any float
  instance, and the printed program differs from the idealized one in its float instance alone.
-/
import proofs.«173938_j1580547974629_1_alg».proof.Proof.Gen.Kernel.Launch
import proofs.«173938_j1580547974629_1_alg».proof.Proof.Gen.Kernel.Skeleton
import proofs.«173938_j1580547974629_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The branch conditions over the grid -/

theorem hcond2_1 : ∀ t : Fin cfg2.N, k2_cond1 (grid2.coords t) = 1#1 ↔ t.val % 8 = 0 :=
  (by decide +kernel : ∀ t : Fin grid2.N, k2_cond1 (grid2.coords t) = 1#1 ↔ t.val % 8 = 0)
theorem hcond2_2 : ∀ t : Fin cfg2.N, k2_cond2 (grid2.coords t) = 1#1 ↔ ¬ t.val % 8 = 0 :=
  (by decide +kernel : ∀ t : Fin grid2.N, k2_cond2 (grid2.coords t) = 1#1 ↔ ¬ t.val % 8 = 0)
/-- One of the two branches is taken at every coordinate: the output window is idle nowhere. -/
theorem hidle2_3 : ∀ i : grid2.Coords, cfg2.idle 3 i = false := by decide +kernel

abbrev VO2_3 : View sig .tc .vmem S1x1 .f32 := (Memref.whole cc2_stg3_0 : Memref sig .tc .vmem S1x1 .f32).view
abbrev ms2_0 (t : Fin cfg2.N) : Memref sig .tc .vmem S512x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)

/-! ## The body's run in each case -/

set_option maxHeartbeats 1000000 in
/-- The first point: the output buffer, at any contents, ends with the stored pieces. -/
noncomputable def kernelRun2_A (c : Dev nD) (i : grid2.Coords) (arg1 : Memref sig .tc .vmem S512x1 .f32) (harg1 : arg1.IsWhole) (arg2 : Memref sig .tc .vmem S512x1 .f32) (harg2 : arg2.IsWhole) (arg3 : Memref sig .tc .vmem S1x4096 .f32) (harg3 : arg3.IsWhole) (arg4 : Memref sig .tc .vmem S1x1 .f32) (harg4 : arg4.IsWhole)
    (hc1 : k2_cond1 i = 1#1) (hc2 : ¬ k2_cond2 i = 1#1) (x0 : Vec F S512x1 .f32) (x1 : Vec F S512x1 .f32) (x2 : Vec F S1x4096 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc2__reduce_kernel i arg1 harg1 arg2 harg2 arg3 harg3 arg4 harg4) K } := by
  refine ⟨?_, fun E K => ?run⟩
  case run =>
    simp only [cc2__reduce_kernel_eq_skeleton]; unfold cc2__reduce_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 1000000 in
/-- A later point: the output buffer, at its running contents `xo3`, ends with the stored pieces. -/
noncomputable def kernelRun2_B (c : Dev nD) (i : grid2.Coords) (arg1 : Memref sig .tc .vmem S512x1 .f32) (harg1 : arg1.IsWhole) (arg2 : Memref sig .tc .vmem S512x1 .f32) (harg2 : arg2.IsWhole) (arg3 : Memref sig .tc .vmem S1x4096 .f32) (harg3 : arg3.IsWhole) (arg4 : Memref sig .tc .vmem S1x1 .f32) (harg4 : arg4.IsWhole)
    (hc1 : ¬ k2_cond1 i = 1#1) (hc2 : k2_cond2 i = 1#1) (x0 : Vec F S512x1 .f32) (x1 : Vec F S512x1 .f32) (x2 : Vec F S1x4096 .f32) (xo3 : Vec F S1x1 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc2__reduce_kernel i arg1 harg1 arg2 harg2 arg3 harg3 arg4 harg4) K } := by
  refine ⟨?_, fun E K => ?run⟩
  case run =>
    simp only [cc2__reduce_kernel_eq_skeleton]; unfold cc2__reduce_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## What each case leaves in the output buffer -/

theorem cover2_A_3 (c : Dev nD) (i : grid2.Coords) (arg1 : Memref sig .tc .vmem S512x1 .f32) (harg1 : arg1.IsWhole) (arg2 : Memref sig .tc .vmem S512x1 .f32) (harg2 : arg2.IsWhole) (arg3 : Memref sig .tc .vmem S1x4096 .f32) (harg3 : arg3.IsWhole) (arg4 : Memref sig .tc .vmem S1x1 .f32) (harg4 : arg4.IsWhole)
    (hc1 : k2_cond1 i = 1#1) (hc2 : ¬ k2_cond2 i = 1#1) (x0 : Vec F S512x1 .f32) (x1 : Vec F S512x1 .f32) (x2 : Vec F S1x4096 .f32) (y : S1x1.Idx) :
    ∃ pc ∈ (kernelRun2_A c i arg1 harg1 arg2 harg2 arg3 harg3 arg4 harg4 hc1 hc2 x0 x1 x2).1, y ∈ pc.1.set :=
  View.cover_of_tiledL (kernelRun2_A c i arg1 harg1 arg2 harg2 arg3 harg3 arg4 harg4 hc1 hc2 x0 x1 x2).1 S1x1.size (by sl_kernel_rfl) y

/-- What the first point leaves in the output buffer: its pieces read back. -/
def out2_A_3 (c : Dev nD) (i : grid2.Coords) (arg1 : Memref sig .tc .vmem S512x1 .f32) (harg1 : arg1.IsWhole) (arg2 : Memref sig .tc .vmem S512x1 .f32) (harg2 : arg2.IsWhole) (arg3 : Memref sig .tc .vmem S1x4096 .f32) (harg3 : arg3.IsWhole) (arg4 : Memref sig .tc .vmem S1x1 .f32) (harg4 : arg4.IsWhole)
    (hc1 : k2_cond1 i = 1#1) (hc2 : ¬ k2_cond2 i = 1#1) (x0 : Vec F S512x1 .f32) (x1 : Vec F S512x1 .f32) (x2 : Vec F S1x4096 .f32) : Vec F S1x1 .f32 :=
  VO2_3.read (Elt F) (VO2_3.writes (Elt F) VO2_3.junk (kernelRun2_A c i arg1 harg1 arg2 harg2 arg3 harg3 arg4 harg4 hc1 hc2 x0 x1 x2).1)

theorem cover2_B_3 (c : Dev nD) (i : grid2.Coords) (arg1 : Memref sig .tc .vmem S512x1 .f32) (harg1 : arg1.IsWhole) (arg2 : Memref sig .tc .vmem S512x1 .f32) (harg2 : arg2.IsWhole) (arg3 : Memref sig .tc .vmem S1x4096 .f32) (harg3 : arg3.IsWhole) (arg4 : Memref sig .tc .vmem S1x1 .f32) (harg4 : arg4.IsWhole)
    (hc1 : ¬ k2_cond1 i = 1#1) (hc2 : k2_cond2 i = 1#1) (x0 : Vec F S512x1 .f32) (x1 : Vec F S512x1 .f32) (x2 : Vec F S1x4096 .f32) (xo3 : Vec F S1x1 .f32) (y : S1x1.Idx) :
    ∃ pc ∈ (kernelRun2_B c i arg1 harg1 arg2 harg2 arg3 harg3 arg4 harg4 hc1 hc2 x0 x1 x2 xo3).1, y ∈ pc.1.set :=
  View.cover_of_tiledL (kernelRun2_B c i arg1 harg1 arg2 harg2 arg3 harg3 arg4 harg4 hc1 hc2 x0 x1 x2 xo3).1 S1x1.size (by sl_kernel_rfl) y

/-- What a later point leaves in the output buffer: its pieces read back. -/
def out2_B_3 (c : Dev nD) (i : grid2.Coords) (arg1 : Memref sig .tc .vmem S512x1 .f32) (harg1 : arg1.IsWhole) (arg2 : Memref sig .tc .vmem S512x1 .f32) (harg2 : arg2.IsWhole) (arg3 : Memref sig .tc .vmem S1x4096 .f32) (harg3 : arg3.IsWhole) (arg4 : Memref sig .tc .vmem S1x1 .f32) (harg4 : arg4.IsWhole)
    (hc1 : ¬ k2_cond1 i = 1#1) (hc2 : k2_cond2 i = 1#1) (x0 : Vec F S512x1 .f32) (x1 : Vec F S512x1 .f32) (x2 : Vec F S1x4096 .f32) (xo3 : Vec F S1x1 .f32) : Vec F S1x1 .f32 :=
  VO2_3.read (Elt F) (VO2_3.writes (Elt F) VO2_3.junk (kernelRun2_B c i arg1 harg1 arg2 harg2 arg3 harg3 arg4 harg4 hc1 hc2 x0 x1 x2 xo3).1)

/-! ## What the output buffer holds after each point -/

/-- The accumulation: after point `n` the output buffer holds the first case's contents at `n = 0`, and otherwise the
    second case's over what point `n - 1` left. -/
def outsAt2 (c : Dev nD) : (n : ℕ) → n < cfg2.N → Vec F S1x1 .f32
  | 0, hn => out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩)
      ((hcond2_1 ⟨0, hn⟩).mpr (Nat.zero_mod _)) (fun h => (hcond2_2 ⟨0, hn⟩).mp h (Nat.zero_mod _)) (iblk2 V c 0 ⟨0, hn⟩) (iblk2 V c 1 ⟨0, hn⟩) (iblk2 V c 2 ⟨0, hn⟩)
  | n + 1, hn =>
    if h0 : (n + 1) % 8 = 0 then
      out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩)
        ((hcond2_1 ⟨n + 1, hn⟩).mpr h0) (fun h => (hcond2_2 ⟨n + 1, hn⟩).mp h h0) (iblk2 V c 0 ⟨n + 1, hn⟩) (iblk2 V c 1 ⟨n + 1, hn⟩) (iblk2 V c 2 ⟨n + 1, hn⟩)
    else
      out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩)
        (fun h => h0 ((hcond2_1 ⟨n + 1, hn⟩).mp h)) ((hcond2_2 ⟨n + 1, hn⟩).mpr h0) (iblk2 V c 0 ⟨n + 1, hn⟩) (iblk2 V c 1 ⟨n + 1, hn⟩) (iblk2 V c 2 ⟨n + 1, hn⟩) (outsAt2 c n (Nat.lt_of_succ_lt hn))

theorem outsAt2_A (c : Dev nD) (t : Fin cfg2.N) (h0 : t.val % 8 = 0) :
    outsAt2 V c t.val t.isLt = out2_A_3 c (grid2.coords t) (ms2_0 t) (hs2_0 t) (ms2_1 t) (hs2_1 t) (ms2_2 t) (hs2_2 t) (ms2_3 t) (hs2_3 t)
      ((hcond2_1 t).mpr h0) (fun h => (hcond2_2 t).mp h h0) (iblk2 V c 0 t) (iblk2 V c 1 t) (iblk2 V c 2 t) := by
  obtain ⟨n, hn⟩ := t
  cases n with
  | zero => exact rfl
  | succ n => exact (dif_pos h0).trans rfl

theorem outsAt2_B (c : Dev nD) (t : Fin cfg2.N) (h0 : ¬t.val % 8 = 0) :
    outsAt2 V c t.val t.isLt = out2_B_3 c (grid2.coords t) (ms2_0 t) (hs2_0 t) (ms2_1 t) (hs2_1 t) (ms2_2 t) (hs2_2 t) (ms2_3 t) (hs2_3 t)
      (fun h => h0 ((hcond2_1 t).mp h)) ((hcond2_2 t).mpr h0) (iblk2 V c 0 t) (iblk2 V c 1 t) (iblk2 V c 2 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at point `t` each input's buffer at its block and the
    output's at `outsAt2`; the class's invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- At a later point the output's buffer holds what the body left at the point before. -/
theorem before2_3_B (c : Dev nD) (t : Fin cfg2.N) (h0 : ¬t.val % 8 = 0) (d) :
    (dat2 V c).before 3 t d = (outsAt2 V c (t.val - 1) (Nat.lt_of_le_of_lt (Nat.sub_le _ _) t.isLt)) := by
  have hN : t.val < 8 := lt_of_lt_of_eq t.isLt (show cfg2.N = 8 from N_2)
  rw [Dat.before_out_kept _ 3 rfl t (by omega) (Bool.eq_false_iff.mpr fun h => by have := (flush2_3 _).mp h; dsimp only at this; omega)
    hidle2_3 (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  have hN : t.val < 8 := lt_of_lt_of_eq t.isLt (show cfg2.N = 8 from N_2)
  by_cases h0 : t.val % 8 = 0
  · rw [outsAt2_A V c t h0]
    unfold out2_A_3
    iintro ⟨HΦ, Ho, ⟨%d0, H0⟩, ⟨%d1, H1⟩, ⟨%d2, H2⟩, ⟨%d3, H3⟩⟩
    iapply ((kernelRun2_A c (grid2.coords t) _ _ _ _ _ _ _ _ ((hcond2_1 t).mpr h0) (fun h => (hcond2_2 t).mp h h0) (iblk2 V c 0 t) (iblk2 V c 1 t) (iblk2 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_A_3 c _ _ _ _ _ _ _ _ _ _ _ _ _ _)
  · rw [outsAt2_B V c t h0]
    simp only [before2_3_B V c t h0]
    unfold out2_B_3
    iintro ⟨HΦ, Ho, ⟨%d0, H0⟩, ⟨%d1, H1⟩, ⟨%d2, H2⟩, ⟨%d3, H3⟩⟩
    iapply ((kernelRun2_B c (grid2.coords t) _ _ _ _ _ _ _ _ (fun h => h0 ((hcond2_1 t).mp h)) ((hcond2_2 t).mpr h0) (iblk2 V c 0 t) (iblk2 V c 1 t) (iblk2 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _ _)

/-- The body obligation at every point: the windows opened one by one, the output window's idle table false. -/
theorem body_obligation2 (c : Dev nD) : BodyObligation (dat2 (F := F) V c) (defs₀ (F := F)) Variants.none () Set.univ := fun t => by
  rw [bigSep_W2, bigSep_W2]
  rw [hidle2_3 (cfg2.grid.coords t)]
  exact sound_body2 V c t

end Cert.Kernel.Frm

end
-- ==== Proof.K.Run.lean ====
/- The run of @main: its five segments from the launch to the return. The buffer contents at every segment boundary
   are a fold from the launch memory: a region leaves each of its windows' arrays at what its write-backs make of it and
   every other buffer as entered; a host stretch leaves what its operations compute. Each region is a segment over the
   thread state "every unscoped buffer at the boundary's contents, the generator register at some state, nothing owed";
   the launch theorem over the segments gives every unscoped buffer's final contents as the last boundary's, and the
   argument arrays are read back through the fold to the launch memory. This is the same argument for the
   program as printed at the word level: every statement here is at any float instance, and the printed program differs
   from the idealized one in its float instance alone. -/
import proofs.«173938_j1580547974629_1_alg».proof.Proof.Gen.Kernel.Launch
import proofs.«173938_j1580547974629_1_alg».proof.Proof.Gen.Kernel.Skeleton
import proofs.«173938_j1580547974629_1_alg».proof.Proof.Gen.Kernel.Points
import proofs.«173938_j1580547974629_1_alg».proof.Proof.K.Region0
import proofs.«173938_j1580547974629_1_alg».proof.Proof.K.Region1
import proofs.«173938_j1580547974629_1_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- The same read at the TensorCore's references: region 0's entry contents. -/
abbrev V0 : (c : Dev nD) → (b : Ref sig .tc) → Buf (Elt F) ((c : Thread nD τ).loc b) := fun c b => W0 m ρ c b
/-- At region 0's exit: its windows' arrays at what the pipeline leaves (an input as entered, an output with its
    write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: region 0's exit contents, which region 1 is entered from. -/
abbrev V1 : (c : Dev nD) → (b : Ref sig .tc) → Buf (Elt F) ((c : Thread nD τ).loc b) := fun c b => W1 m ρ c b
/-- At region 0's exit each of its arrays holds what the pipeline leaves, and every other buffer what it held at
    entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- At region 1's exit: its windows' arrays at what the pipeline leaves (an input as entered, an output with its
    write-backs folded), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references: region 1's exit contents. -/
abbrev V2 : (c : Dev nD) → (b : Ref sig .tc) → Buf (Elt F) ((c : Thread nD τ).loc b) := fun c b => W2 m ρ c b
/-- At region 1's exit each of its arrays holds what the pipeline leaves, and every other buffer what it held at
    entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the first host stretch (the transpose): region 2's entry. -/
abbrev W3 : Dev nD → Valuation τ sig (Elt F) := fun c => StableHlo.after hostOps2 (W2 m ρ c)
/-- The same read at the TensorCore's references: region 2's entry contents. -/
abbrev V3 : (c : Dev nD) → (b : Ref sig .tc) → Buf (Elt F) ((c : Thread nD τ).loc b) := fun c b => W3 m ρ c b
/-- At region 2's exit: its windows' arrays at what the pipeline leaves (an input as entered, an output with its
    write-backs folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references: region 2's exit contents. -/
abbrev V4 : (c : Dev nD) → (b : Ref sig .tc) → Buf (Elt F) ((c : Thread nD τ).loc b) := fun c b => W4 m ρ c b
/-- At region 2's exit each of its arrays holds what the pipeline leaves, and every other buffer what it held at
    entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the last host stretch (the reshape, the constant, the division): what @main returns from. -/
abbrev W5 : Dev nD → Valuation τ sig (Elt F) := fun c => StableHlo.after hostOps3 (W4 m ρ c)

/-! ## What the host stretches compute, and what they leave alone -/

/-- The transpose writes `main_v2` alone. -/
theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.unary_writes, Finset.mem_singleton]
    exact StableHlo.devRef_ne_of_ne hb))

/-- `main_v2` is the transpose of region 1's third output. -/
theorem W3_main_v2 (c : Dev nD) :
    (W3 m ρ c (Proc.devRef .tc main_v2) : (⟨S1x4096, .f32⟩ : BufTy).Contents (Elt F))
      = transpose S1x4096 [1, 0] (W2 m ρ c (Proc.devRef .tc main_v1_2) : (⟨S4096x1, .f32⟩ : BufTy).Contents (Elt F)) transposes_S4096x1_S1x4096_1_0 := by
  show StableHlo.after hostOps2 (W2 m ρ c) (Proc.devRef .tc main_v2) = _
  after_results

/-- The last stretch writes `main_v4`, `main_cst` and `main_v5` alone. -/
theorem W5_of_ne (c : Dev nD) (b : Ref sig .tc) (h4 : b ≠ main_v4) (hc : b ≠ main_cst) (h5 : b ≠ main_v5) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.nullary_writes, StableHlo.binary_writes, StableHlo.reshape_writes, Finset.mem_singleton]
    exact ⟨StableHlo.devRef_ne_of_ne h4, StableHlo.devRef_ne_of_ne hc, StableHlo.devRef_ne_of_ne h5⟩))

/-- The returned scalar: region 2's output read as a scalar, divided by the constant. -/
theorem W5_main_v5 (c : Dev nD) :
    (W5 m ρ c (Proc.devRef .tc main_v5) : (⟨S_, .f32⟩ : BufTy).Contents (Elt F))
      = Host.divf (shapeCast S_ (W4 m ρ c (Proc.devRef .tc main_v3) : (⟨S1x1, .f32⟩ : BufTy).Contents (Elt F)) shapeCasts_S1x1_S_)
          (constant S_ .f32 0x4B800000#32) := by
  show StableHlo.after hostOps3 (W4 m ρ c) (Proc.devRef .tc main_v5) = _
  after_results
  rfl

/-! ## The arguments end as launched: no host operation writes one, and a region reads it through an input window or
    not at all, so the fold at an argument's buffer walks back to the launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide) (by decide) (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 1).trans (((dat1 (V1 m ρ) c).arrAt_in 1 rfl _).trans (A_eq1 (V1 m ρ) c 1))
    _ = W0 m ρ c (Proc.devRef .tc main_arg0) := W1_of_ne m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide) (by decide) (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 2).trans (((dat1 (V1 m ρ) c).arrAt_in 2 rfl _).trans (A_eq1 (V1 m ρ) c 2))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps2_fresh : (hostOps2 : List (HloOp τ sig (Elt F))).Forall fun op => op.fresh = ∅ := by
  simp only [List.Forall]; repeat' constructor
/-- No operation of the last host stretch allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at `W0`, left at `W1`. Its arrays are
    split out of the unscoped buffers and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W1`, left at `W2`. Its arrays are
    split out of the unscoped buffers and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W3`, left at `W4`. Its arrays are
    split out of the unscoped buffers and put back at the exit contents; the generator register goes into the
    pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a region per pallas_call, a host segment per stretch from its boundary's contents. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.Kernel.Frm

end
-- ==== Proof.KI.Region0.lean ====
/-
  Region 0: the running column maximum.  At grid point t the body reads rows 512 t .. 512 t + 511 of the target
  (window 0) and leaves in the resident (1, 4096) output buffer (window 1) the block's column maxima at the first
  point, and at every later point the entrywise maximum of what the buffer held and the block's column maxima.
  This module states what the two windows' staging buffers hold after the body at each point (the input its
  block; the output by recursion on the point) and proves the body's triple at every point, at any float
  instance.  The condition table of the output window (idle where neither branch is taken) is false at every
  coordinate, since one of the two branches is taken at each.
-/
import proofs.«173938_j1580547974629_1_alg».proof.Proof.Gen.KernelIdeal.Launch
import proofs.«173938_j1580547974629_1_alg».proof.Proof.Gen.KernelIdeal.Skeleton
import proofs.«173938_j1580547974629_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions over the grid -/

/-- The first branch is taken at the first point only. -/
theorem hcond0_1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second branch is taken at every other point. -/
theorem hcond0_2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- One of the two branches is taken at every coordinate: the output window is idle nowhere. -/
theorem hidle0_1 : ∀ i : grid0.Coords, cfg0.idle 1 i = false := by decide +kernel

/-- One staging buffer of the output window, through which its contents are stated. -/
abbrev VO0_1 : View sig .tc .vmem S1x4096 .f32 := (Memref.whole cc0_stg1_0 : Memref sig .tc .vmem S1x4096 .f32).view
/-- Each window's current staging memref at point `t`, and its wholeness. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)

/-! ## The body's run in each case -/

set_option maxHeartbeats 1000000 in
/-- The first point: the output buffer, at any contents, ends with the stored pieces. -/
noncomputable def kernelRun0_A (c : Dev nD) (i : grid0.Coords) (arg1 : Memref sig .tc .vmem S512x4096 .f32) (harg1 : arg1.IsWhole) (arg2 : Memref sig .tc .vmem S1x4096 .f32) (harg2 : arg2.IsWhole)
    (hc1 : k0_cond1 i = 1#1) (hc2 : ¬ k0_cond2 i = 1#1) (x0 : Vec F S512x4096 .f32) :
    { L1 : List (View.Piece (Elt F) S1x4096 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__colmax_kernel i arg1 harg1 arg2 harg2) K } := by
  refine ⟨?_, fun E K => ?run⟩
  case run =>
    simp only [cc0__colmax_kernel_eq_skeleton]; unfold cc0__colmax_kernel_skel
    unfold owns
    iintro ⟨⟨%f0, %hf0, H0⟩, ⟨%d1, %f1, -, H1⟩, Hk⟩
    obtain rfl := harg1.eq_unread hf0
    sl_exec (disch := first | exact hc1 | exact hc2)
    sl_step
    iapply Hk
    isplitl [H0]
    · iexists _; isplitr; · ipureintro; exact harg1.read_unread _
      iexact H0
    iexists _; iexact H1

set_option maxHeartbeats 1000000 in
/-- A later point: the output buffer, at its running contents `xo1`, ends with the stored pieces. -/
noncomputable def kernelRun0_B (c : Dev nD) (i : grid0.Coords) (arg1 : Memref sig .tc .vmem S512x4096 .f32) (harg1 : arg1.IsWhole) (arg2 : Memref sig .tc .vmem S1x4096 .f32) (harg2 : arg2.IsWhole)
    (hc1 : ¬ k0_cond1 i = 1#1) (hc2 : k0_cond2 i = 1#1) (x0 : Vec F S512x4096 .f32) (xo1 : Vec F S1x4096 .f32) :
    { L1 : List (View.Piece (Elt F) S1x4096 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__colmax_kernel i arg1 harg1 arg2 harg2) K } := by
  refine ⟨?_, fun E K => ?run⟩
  case run =>
    simp only [cc0__colmax_kernel_eq_skeleton]; unfold cc0__colmax_kernel_skel
    unfold owns
    iintro ⟨⟨%f0, %hf0, H0⟩, ⟨%f1, %hf1, H1⟩, Hk⟩
    obtain rfl := harg1.eq_unread hf0; obtain rfl := harg2.eq_unread hf1
    sl_exec (disch := first | exact hc1 | exact hc2)
    sl_step
    iapply Hk
    isplitl [H0]
    · iexists _; isplitr; · ipureintro; exact harg1.read_unread _
      iexact H0
    iexists _; iexact H1

/-! ## What each case leaves in the output buffer -/

theorem cover0_A_1 (c : Dev nD) (i : grid0.Coords) (arg1 : Memref sig .tc .vmem S512x4096 .f32) (harg1 : arg1.IsWhole) (arg2 : Memref sig .tc .vmem S1x4096 .f32) (harg2 : arg2.IsWhole)
    (hc1 : k0_cond1 i = 1#1) (hc2 : ¬ k0_cond2 i = 1#1) (x0 : Vec F S512x4096 .f32) (y : S1x4096.Idx) :
    ∃ pc ∈ (kernelRun0_A c i arg1 harg1 arg2 harg2 hc1 hc2 x0).1, y ∈ pc.1.set :=
  View.cover_of_tiledL (kernelRun0_A c i arg1 harg1 arg2 harg2 hc1 hc2 x0).1 S1x4096.size (by sl_kernel_rfl) y

/-- What the first point leaves in the output buffer: its pieces read back. -/
def out0_A_1 (c : Dev nD) (i : grid0.Coords) (arg1 : Memref sig .tc .vmem S512x4096 .f32) (harg1 : arg1.IsWhole) (arg2 : Memref sig .tc .vmem S1x4096 .f32) (harg2 : arg2.IsWhole)
    (hc1 : k0_cond1 i = 1#1) (hc2 : ¬ k0_cond2 i = 1#1) (x0 : Vec F S512x4096 .f32) : Vec F S1x4096 .f32 :=
  VO0_1.read (Elt F) (VO0_1.writes (Elt F) VO0_1.junk (kernelRun0_A c i arg1 harg1 arg2 harg2 hc1 hc2 x0).1)

theorem cover0_B_1 (c : Dev nD) (i : grid0.Coords) (arg1 : Memref sig .tc .vmem S512x4096 .f32) (harg1 : arg1.IsWhole) (arg2 : Memref sig .tc .vmem S1x4096 .f32) (harg2 : arg2.IsWhole)
    (hc1 : ¬ k0_cond1 i = 1#1) (hc2 : k0_cond2 i = 1#1) (x0 : Vec F S512x4096 .f32) (xo1 : Vec F S1x4096 .f32) (y : S1x4096.Idx) :
    ∃ pc ∈ (kernelRun0_B c i arg1 harg1 arg2 harg2 hc1 hc2 x0 xo1).1, y ∈ pc.1.set :=
  View.cover_of_tiledL (kernelRun0_B c i arg1 harg1 arg2 harg2 hc1 hc2 x0 xo1).1 S1x4096.size (by sl_kernel_rfl) y

/-- What a later point leaves in the output buffer: its pieces read back. -/
def out0_B_1 (c : Dev nD) (i : grid0.Coords) (arg1 : Memref sig .tc .vmem S512x4096 .f32) (harg1 : arg1.IsWhole) (arg2 : Memref sig .tc .vmem S1x4096 .f32) (harg2 : arg2.IsWhole)
    (hc1 : ¬ k0_cond1 i = 1#1) (hc2 : k0_cond2 i = 1#1) (x0 : Vec F S512x4096 .f32) (xo1 : Vec F S1x4096 .f32) : Vec F S1x4096 .f32 :=
  VO0_1.read (Elt F) (VO0_1.writes (Elt F) VO0_1.junk (kernelRun0_B c i arg1 harg1 arg2 harg2 hc1 hc2 x0 xo1).1)

/-! ## What the output buffer holds after each point -/

/-- The accumulation: after point `n` the output buffer holds the first case's contents at `n = 0`, and otherwise the
    second case's over what point `n - 1` left. -/
def outsAt0 (c : Dev nD) : (n : ℕ) → n < cfg0.N → Vec F S1x4096 .f32
  | 0, hn => out0_A_1 c (grid0.coords ⟨0, hn⟩) (ms0_0 ⟨0, hn⟩) (hs0_0 ⟨0, hn⟩) (ms0_1 ⟨0, hn⟩) (hs0_1 ⟨0, hn⟩)
      ((hcond0_1 ⟨0, hn⟩).mpr (Nat.zero_mod _)) (fun h => (hcond0_2 ⟨0, hn⟩).mp h (Nat.zero_mod _)) (iblk0 V c 0 ⟨0, hn⟩)
  | n + 1, hn =>
    if h0 : (n + 1) % 8 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩)
        ((hcond0_1 ⟨n + 1, hn⟩).mpr h0) (fun h => (hcond0_2 ⟨n + 1, hn⟩).mp h h0) (iblk0 V c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩)
        (fun h => h0 ((hcond0_1 ⟨n + 1, hn⟩).mp h)) ((hcond0_2 ⟨n + 1, hn⟩).mpr h0) (iblk0 V c 0 ⟨n + 1, hn⟩) (outsAt0 c n (Nat.lt_of_succ_lt hn))

theorem outsAt0_A (c : Dev nD) (t : Fin cfg0.N) (h0 : t.val % 8 = 0) :
    outsAt0 V c t.val t.isLt = out0_A_1 c (grid0.coords t) (ms0_0 t) (hs0_0 t) (ms0_1 t) (hs0_1 t)
      ((hcond0_1 t).mpr h0) (fun h => (hcond0_2 t).mp h h0) (iblk0 V c 0 t) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = out0_B_1 c (grid0.coords t) (ms0_0 t) (hs0_0 t) (ms0_1 t) (hs0_1 t)
      (fun h => h0 ((hcond0_1 t).mp h)) ((hcond0_2 t).mpr h0) (iblk0 V c 0 t)
      (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at point `t` the input's buffer at its block and the
    output's at `outsAt0`; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-- At a later point the output's buffer holds what the body left at the point before: it is not written back
    between, and the window is live and uncut. -/
theorem before0_1_B (c : Dev nD) (t : Fin cfg0.N) (h0 : ¬t.val % 8 = 0) (d) :
    (dat0 V c).before 1 t d = (outsAt0 V c (t.val - 1) (Nat.lt_of_le_of_lt (Nat.sub_le _ _) t.isLt)) := by
  have hN : t.val < 8 := lt_of_lt_of_eq t.isLt (show cfg0.N = 8 from N_0)
  rw [Dat.before_out_kept _ 1 rfl t (by omega) (Bool.eq_false_iff.mpr fun h => by have := (flush0_1 _).mp h; dsimp only at this; omega)
    hidle0_1 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 8 := lt_of_lt_of_eq t.isLt (show cfg0.N = 8 from N_0)
  by_cases h0 : t.val % 8 = 0
  · rw [outsAt0_A V c t h0]
    unfold out0_A_1
    iintro ⟨HΦ, Ho, ⟨%d0, H0⟩, ⟨%d1, H1⟩⟩
    iapply ((kernelRun0_A c (grid0.coords t) _ _ _ _ ((hcond0_1 t).mpr h0) (fun h => (hcond0_2 t).mp h h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · rw [outsAt0_B V c t h0]
    simp only [before0_1_B V c t h0]
    unfold out0_B_1
    iintro ⟨HΦ, Ho, ⟨%d0, H0⟩, ⟨%d1, H1⟩⟩
    iapply ((kernelRun0_B c (grid0.coords t) _ _ _ _ (fun h => h0 ((hcond0_1 t).mp h)) ((hcond0_2 t).mpr h0) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _ _)

/-- The body obligation at every point: the windows opened one by one, the output window's idle table false. -/
theorem body_obligation0 (c : Dev nD) : BodyObligation (dat0 (F := F) V c) (defs₀ (F := F)) Variants.none () Set.univ := fun t => by
  rw [bigSep_W0, bigSep_W0]
  rw [hidle0_1 (cfg0.grid.coords t)]
  exact sound_body0 V c t

end Cert.KernelIdeal.Frm

end
-- ==== Proof.KI.Region1.lean ====
/-
  Region 1 of the kernel (the row statistics), at the buffer contents V the region is entered with.

  Per block of 256 rows the body reads three blocks (the 1 x 256 block of the column maxima, the 256 x 4096 blocks of
  the input and of the target) and stores three 256 x 1 columns: the gated sum of minima doubled, the row sums of the
  input, the row sums of the target. Here: each window's block at a point, what the body leaves in each output
  buffer as one covering piece over the skeleton's payloads, the body's triple, the proof data and the body obligation.
-/
import proofs.«173938_j1580547974629_1_alg».proof.Proof.Gen.KernelIdeal.Launch
import proofs.«173938_j1580547974629_1_alg».proof.Proof.Gen.KernelIdeal.Skeleton
import proofs.«173938_j1580547974629_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s
    and whose body leaves the block in place: the window is fetched at every point, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1 x 256 block. -/
abbrev r1_0 : Rect S1x256 := Rect.unit (s := S1x256) ![0, 0] S1x256.size inb_S1x256_S1x256_0_0
/-- The whole 256 x 4096 block. -/
abbrev r1_1 : Rect S256x4096 := Rect.unit (s := S256x4096) ![0, 0] S256x4096.size inb_S256x4096_S256x4096_0_0
/-- The whole 256 x 1 column. -/
abbrev r1_2 : Rect S256x1 := Rect.unit (s := S256x1) ![0, 0] S256x1.size inb_S256x1_S256x1_0_0

/-! ## What the body leaves in each output window's buffer -/

/-- Window 3's staging buffer after the body, from the input windows' blocks (`x0` the maxima block, `x1` the input
    block, `x2` the target block): its one store as a piece. -/
def out1_3 (x0 : Vec F S1x256 .f32) (x1 : Vec F S256x4096 .f32) (x2 : Vec F S256x4096 .f32) : Vec F S256x1 .f32 :=
  View.canon [⟨r1_2, k1_pay1 (View.ld x2 r1_1) (View.ld x1 r1_1) (View.ld x0 r1_0)⟩]
/-- Window 4's staging buffer after the body: the row sums of the input block. -/
def out1_4 (x1 : Vec F S256x4096 .f32) : Vec F S256x1 .f32 :=
  View.canon [⟨r1_2, k1_pay2 (View.ld x1 r1_1)⟩]
/-- Window 5's staging buffer after the body: the row sums of the target block. -/
def out1_5 (x2 : Vec F S256x4096 .f32) : Vec F S256x1 .f32 :=
  View.canon [⟨r1_2, k1_pay3 (View.ld x2 r1_1)⟩]

/-- One store of the whole column tiles it, so it covers it. -/
theorem cover1_3 (p0 : Vec F S256x1 .f32) (y : S256x1.Idx) :
    ∃ pc ∈ ([⟨r1_2, p0⟩] : List (View.Piece (Elt F) S256x1 .f32)), y ∈ pc.1.set :=
  View.cover_of_tiled [⟨r1_2, p0⟩] S256x1.size (by rfl) y
theorem cover1_4 (p0 : Vec F S256x1 .f32) (y : S256x1.Idx) :
    ∃ pc ∈ ([⟨r1_2, p0⟩] : List (View.Piece (Elt F) S256x1 .f32)), y ∈ pc.1.set :=
  cover1_3 p0 y
theorem cover1_5 (p0 : Vec F S256x1 .f32) (y : S256x1.Idx) :
    ∃ pc ∈ ([⟨r1_2, p0⟩] : List (View.Piece (Elt F) S256x1 .f32)), y ∈ pc.1.set :=
  cover1_3 p0 y

/-! ## The body's triple -/

set_option maxHeartbeats 4000000 in
/-- The kernel body on whole staging memrefs, the inputs' at read contents `xW` and the outputs' at anything, runs to
    the continuation holding the inputs' as they were and each output's at `out1_W` of the inputs'. -/
theorem sound_kernel1 (c : Dev nD) (E : Set ℕ) (i : grid1.Coords)
    (arg1 : Memref sig .tc .vmem S1x256 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (x0 : Vec F S1x256 .f32) (x1 : Vec F S256x4096 .f32) (x2 : Vec F S256x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x1)
            ∗ owns (c : Thread nD τ) arg6 fullShare (out1_5 x2)) -∗ K ⟨⟩))
      ⊢ wp frame (wpE (defs₀ (F := F)) Variants.none c none) E (cc1__rowstats_kernel i arg1 harg1 arg2 harg2 arg3 harg3 arg4 harg4 arg5 harg5 arg6 harg6) K := by
  simp only [cc1__rowstats_kernel_eq_skeleton]; unfold cc1__rowstats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of pipeline 1 on core `c`: the arrays as the region finds them (`V`); after the body at point `t`
    each input's buffer at its block and each output's at `out1_W` of the input blocks; the class invariant (the scoped
    rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 1 t)
    | ⟨5, _⟩ => out1_5 (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 1 t) := by dsimp only [dat1]
theorem after1_5 (c : Dev nD) (t : Fin cfg1.N) : (dat1 V c).after 5 t = out1_5 (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.Region2.lean ====
/-
  Region 2: the running total.  At grid point t the body reads rows 512 t .. 512 t + 511 of the two column vectors
  num (window 0) and row_in (window 1) and the whole row vector row_tg (window 2, fetched once), and leaves in the
  resident (1, 1) output buffer (window 3) the block's sum of quotients at the first point, and at every later point
  what the buffer held plus the block's sum.  This module states what the four windows' staging buffers hold after
  the body at each point (each input its block; the output by recursion on the point) and proves the body's triple at
  every point, at any float instance.  The condition table of the output window is false at every coordinate.
-/
import proofs.«173938_j1580547974629_1_alg».proof.Proof.Gen.KernelIdeal.Launch
import proofs.«173938_j1580547974629_1_alg».proof.Proof.Gen.KernelIdeal.Skeleton
import proofs.«173938_j1580547974629_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The branch conditions over the grid -/

theorem hcond2_1 : ∀ t : Fin cfg2.N, k2_cond1 (grid2.coords t) = 1#1 ↔ t.val % 8 = 0 :=
  (by decide +kernel : ∀ t : Fin grid2.N, k2_cond1 (grid2.coords t) = 1#1 ↔ t.val % 8 = 0)
theorem hcond2_2 : ∀ t : Fin cfg2.N, k2_cond2 (grid2.coords t) = 1#1 ↔ ¬ t.val % 8 = 0 :=
  (by decide +kernel : ∀ t : Fin grid2.N, k2_cond2 (grid2.coords t) = 1#1 ↔ ¬ t.val % 8 = 0)
/-- One of the two branches is taken at every coordinate: the output window is idle nowhere. -/
theorem hidle2_3 : ∀ i : grid2.Coords, cfg2.idle 3 i = false := by decide +kernel

abbrev VO2_3 : View sig .tc .vmem S1x1 .f32 := (Memref.whole cc2_stg3_0 : Memref sig .tc .vmem S1x1 .f32).view
abbrev ms2_0 (t : Fin cfg2.N) : Memref sig .tc .vmem S512x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)

/-! ## The body's run in each case -/

set_option maxHeartbeats 1000000 in
/-- The first point: the output buffer, at any contents, ends with the stored pieces. -/
noncomputable def kernelRun2_A (c : Dev nD) (i : grid2.Coords) (arg1 : Memref sig .tc .vmem S512x1 .f32) (harg1 : arg1.IsWhole) (arg2 : Memref sig .tc .vmem S512x1 .f32) (harg2 : arg2.IsWhole) (arg3 : Memref sig .tc .vmem S1x4096 .f32) (harg3 : arg3.IsWhole) (arg4 : Memref sig .tc .vmem S1x1 .f32) (harg4 : arg4.IsWhole)
    (hc1 : k2_cond1 i = 1#1) (hc2 : ¬ k2_cond2 i = 1#1) (x0 : Vec F S512x1 .f32) (x1 : Vec F S512x1 .f32) (x2 : Vec F S1x4096 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc2__reduce_kernel i arg1 harg1 arg2 harg2 arg3 harg3 arg4 harg4) K } := by
  refine ⟨?_, fun E K => ?run⟩
  case run =>
    simp only [cc2__reduce_kernel_eq_skeleton]; unfold cc2__reduce_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 1000000 in
/-- A later point: the output buffer, at its running contents `xo3`, ends with the stored pieces. -/
noncomputable def kernelRun2_B (c : Dev nD) (i : grid2.Coords) (arg1 : Memref sig .tc .vmem S512x1 .f32) (harg1 : arg1.IsWhole) (arg2 : Memref sig .tc .vmem S512x1 .f32) (harg2 : arg2.IsWhole) (arg3 : Memref sig .tc .vmem S1x4096 .f32) (harg3 : arg3.IsWhole) (arg4 : Memref sig .tc .vmem S1x1 .f32) (harg4 : arg4.IsWhole)
    (hc1 : ¬ k2_cond1 i = 1#1) (hc2 : k2_cond2 i = 1#1) (x0 : Vec F S512x1 .f32) (x1 : Vec F S512x1 .f32) (x2 : Vec F S1x4096 .f32) (xo3 : Vec F S1x1 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc2__reduce_kernel i arg1 harg1 arg2 harg2 arg3 harg3 arg4 harg4) K } := by
  refine ⟨?_, fun E K => ?run⟩
  case run =>
    simp only [cc2__reduce_kernel_eq_skeleton]; unfold cc2__reduce_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## What each case leaves in the output buffer -/

theorem cover2_A_3 (c : Dev nD) (i : grid2.Coords) (arg1 : Memref sig .tc .vmem S512x1 .f32) (harg1 : arg1.IsWhole) (arg2 : Memref sig .tc .vmem S512x1 .f32) (harg2 : arg2.IsWhole) (arg3 : Memref sig .tc .vmem S1x4096 .f32) (harg3 : arg3.IsWhole) (arg4 : Memref sig .tc .vmem S1x1 .f32) (harg4 : arg4.IsWhole)
    (hc1 : k2_cond1 i = 1#1) (hc2 : ¬ k2_cond2 i = 1#1) (x0 : Vec F S512x1 .f32) (x1 : Vec F S512x1 .f32) (x2 : Vec F S1x4096 .f32) (y : S1x1.Idx) :
    ∃ pc ∈ (kernelRun2_A c i arg1 harg1 arg2 harg2 arg3 harg3 arg4 harg4 hc1 hc2 x0 x1 x2).1, y ∈ pc.1.set :=
  View.cover_of_tiledL (kernelRun2_A c i arg1 harg1 arg2 harg2 arg3 harg3 arg4 harg4 hc1 hc2 x0 x1 x2).1 S1x1.size (by sl_kernel_rfl) y

/-- What the first point leaves in the output buffer: its pieces read back. -/
def out2_A_3 (c : Dev nD) (i : grid2.Coords) (arg1 : Memref sig .tc .vmem S512x1 .f32) (harg1 : arg1.IsWhole) (arg2 : Memref sig .tc .vmem S512x1 .f32) (harg2 : arg2.IsWhole) (arg3 : Memref sig .tc .vmem S1x4096 .f32) (harg3 : arg3.IsWhole) (arg4 : Memref sig .tc .vmem S1x1 .f32) (harg4 : arg4.IsWhole)
    (hc1 : k2_cond1 i = 1#1) (hc2 : ¬ k2_cond2 i = 1#1) (x0 : Vec F S512x1 .f32) (x1 : Vec F S512x1 .f32) (x2 : Vec F S1x4096 .f32) : Vec F S1x1 .f32 :=
  VO2_3.read (Elt F) (VO2_3.writes (Elt F) VO2_3.junk (kernelRun2_A c i arg1 harg1 arg2 harg2 arg3 harg3 arg4 harg4 hc1 hc2 x0 x1 x2).1)

theorem cover2_B_3 (c : Dev nD) (i : grid2.Coords) (arg1 : Memref sig .tc .vmem S512x1 .f32) (harg1 : arg1.IsWhole) (arg2 : Memref sig .tc .vmem S512x1 .f32) (harg2 : arg2.IsWhole) (arg3 : Memref sig .tc .vmem S1x4096 .f32) (harg3 : arg3.IsWhole) (arg4 : Memref sig .tc .vmem S1x1 .f32) (harg4 : arg4.IsWhole)
    (hc1 : ¬ k2_cond1 i = 1#1) (hc2 : k2_cond2 i = 1#1) (x0 : Vec F S512x1 .f32) (x1 : Vec F S512x1 .f32) (x2 : Vec F S1x4096 .f32) (xo3 : Vec F S1x1 .f32) (y : S1x1.Idx) :
    ∃ pc ∈ (kernelRun2_B c i arg1 harg1 arg2 harg2 arg3 harg3 arg4 harg4 hc1 hc2 x0 x1 x2 xo3).1, y ∈ pc.1.set :=
  View.cover_of_tiledL (kernelRun2_B c i arg1 harg1 arg2 harg2 arg3 harg3 arg4 harg4 hc1 hc2 x0 x1 x2 xo3).1 S1x1.size (by sl_kernel_rfl) y

/-- What a later point leaves in the output buffer: its pieces read back. -/
def out2_B_3 (c : Dev nD) (i : grid2.Coords) (arg1 : Memref sig .tc .vmem S512x1 .f32) (harg1 : arg1.IsWhole) (arg2 : Memref sig .tc .vmem S512x1 .f32) (harg2 : arg2.IsWhole) (arg3 : Memref sig .tc .vmem S1x4096 .f32) (harg3 : arg3.IsWhole) (arg4 : Memref sig .tc .vmem S1x1 .f32) (harg4 : arg4.IsWhole)
    (hc1 : ¬ k2_cond1 i = 1#1) (hc2 : k2_cond2 i = 1#1) (x0 : Vec F S512x1 .f32) (x1 : Vec F S512x1 .f32) (x2 : Vec F S1x4096 .f32) (xo3 : Vec F S1x1 .f32) : Vec F S1x1 .f32 :=
  VO2_3.read (Elt F) (VO2_3.writes (Elt F) VO2_3.junk (kernelRun2_B c i arg1 harg1 arg2 harg2 arg3 harg3 arg4 harg4 hc1 hc2 x0 x1 x2 xo3).1)

/-! ## What the output buffer holds after each point -/

/-- The accumulation: after point `n` the output buffer holds the first case's contents at `n = 0`, and otherwise the
    second case's over what point `n - 1` left. -/
def outsAt2 (c : Dev nD) : (n : ℕ) → n < cfg2.N → Vec F S1x1 .f32
  | 0, hn => out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩)
      ((hcond2_1 ⟨0, hn⟩).mpr (Nat.zero_mod _)) (fun h => (hcond2_2 ⟨0, hn⟩).mp h (Nat.zero_mod _)) (iblk2 V c 0 ⟨0, hn⟩) (iblk2 V c 1 ⟨0, hn⟩) (iblk2 V c 2 ⟨0, hn⟩)
  | n + 1, hn =>
    if h0 : (n + 1) % 8 = 0 then
      out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩)
        ((hcond2_1 ⟨n + 1, hn⟩).mpr h0) (fun h => (hcond2_2 ⟨n + 1, hn⟩).mp h h0) (iblk2 V c 0 ⟨n + 1, hn⟩) (iblk2 V c 1 ⟨n + 1, hn⟩) (iblk2 V c 2 ⟨n + 1, hn⟩)
    else
      out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩)
        (fun h => h0 ((hcond2_1 ⟨n + 1, hn⟩).mp h)) ((hcond2_2 ⟨n + 1, hn⟩).mpr h0) (iblk2 V c 0 ⟨n + 1, hn⟩) (iblk2 V c 1 ⟨n + 1, hn⟩) (iblk2 V c 2 ⟨n + 1, hn⟩) (outsAt2 c n (Nat.lt_of_succ_lt hn))

theorem outsAt2_A (c : Dev nD) (t : Fin cfg2.N) (h0 : t.val % 8 = 0) :
    outsAt2 V c t.val t.isLt = out2_A_3 c (grid2.coords t) (ms2_0 t) (hs2_0 t) (ms2_1 t) (hs2_1 t) (ms2_2 t) (hs2_2 t) (ms2_3 t) (hs2_3 t)
      ((hcond2_1 t).mpr h0) (fun h => (hcond2_2 t).mp h h0) (iblk2 V c 0 t) (iblk2 V c 1 t) (iblk2 V c 2 t) := by
  obtain ⟨n, hn⟩ := t
  cases n with
  | zero => exact rfl
  | succ n => exact (dif_pos h0).trans rfl

theorem outsAt2_B (c : Dev nD) (t : Fin cfg2.N) (h0 : ¬t.val % 8 = 0) :
    outsAt2 V c t.val t.isLt = out2_B_3 c (grid2.coords t) (ms2_0 t) (hs2_0 t) (ms2_1 t) (hs2_1 t) (ms2_2 t) (hs2_2 t) (ms2_3 t) (hs2_3 t)
      (fun h => h0 ((hcond2_1 t).mp h)) ((hcond2_2 t).mpr h0) (iblk2 V c 0 t) (iblk2 V c 1 t) (iblk2 V c 2 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at point `t` each input's buffer at its block and the
    output's at `outsAt2`; the class's invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- At a later point the output's buffer holds what the body left at the point before. -/
theorem before2_3_B (c : Dev nD) (t : Fin cfg2.N) (h0 : ¬t.val % 8 = 0) (d) :
    (dat2 V c).before 3 t d = (outsAt2 V c (t.val - 1) (Nat.lt_of_le_of_lt (Nat.sub_le _ _) t.isLt)) := by
  have hN : t.val < 8 := lt_of_lt_of_eq t.isLt (show cfg2.N = 8 from N_2)
  rw [Dat.before_out_kept _ 3 rfl t (by omega) (Bool.eq_false_iff.mpr fun h => by have := (flush2_3 _).mp h; dsimp only at this; omega)
    hidle2_3 (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  have hN : t.val < 8 := lt_of_lt_of_eq t.isLt (show cfg2.N = 8 from N_2)
  by_cases h0 : t.val % 8 = 0
  · rw [outsAt2_A V c t h0]
    unfold out2_A_3
    iintro ⟨HΦ, Ho, ⟨%d0, H0⟩, ⟨%d1, H1⟩, ⟨%d2, H2⟩, ⟨%d3, H3⟩⟩
    iapply ((kernelRun2_A c (grid2.coords t) _ _ _ _ _ _ _ _ ((hcond2_1 t).mpr h0) (fun h => (hcond2_2 t).mp h h0) (iblk2 V c 0 t) (iblk2 V c 1 t) (iblk2 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_A_3 c _ _ _ _ _ _ _ _ _ _ _ _ _ _)
  · rw [outsAt2_B V c t h0]
    simp only [before2_3_B V c t h0]
    unfold out2_B_3
    iintro ⟨HΦ, Ho, ⟨%d0, H0⟩, ⟨%d1, H1⟩, ⟨%d2, H2⟩, ⟨%d3, H3⟩⟩
    iapply ((kernelRun2_B c (grid2.coords t) _ _ _ _ _ _ _ _ (fun h => h0 ((hcond2_1 t).mp h)) ((hcond2_2 t).mpr h0) (iblk2 V c 0 t) (iblk2 V c 1 t) (iblk2 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _ _)

/-- The body obligation at every point: the windows opened one by one, the output window's idle table false. -/
theorem body_obligation2 (c : Dev nD) : BodyObligation (dat2 (F := F) V c) (defs₀ (F := F)) Variants.none () Set.univ := fun t => by
  rw [bigSep_W2, bigSep_W2]
  rw [hidle2_3 (cfg2.grid.coords t)]
  exact sound_body2 V c t

end Cert.KernelIdeal.Frm

end
-- ==== Proof.KI.Run.lean ====
/- The run of @main: its five segments from the launch to the return. The buffer contents at every segment boundary
   are a fold from the launch memory: a region leaves each of its windows' arrays at what its write-backs make of it and
   every other buffer as entered; a host stretch leaves what its operations compute. Each region is a segment over the
   thread state "every unscoped buffer at the boundary's contents, the generator register at some state, nothing owed";
   the launch theorem over the segments gives every unscoped buffer's final contents as the last boundary's, and the
   argument arrays are read back through the fold to the launch memory. -/
import proofs.«173938_j1580547974629_1_alg».proof.Proof.Gen.KernelIdeal.Launch
import proofs.«173938_j1580547974629_1_alg».proof.Proof.Gen.KernelIdeal.Skeleton
import proofs.«173938_j1580547974629_1_alg».proof.Proof.Gen.KernelIdeal.Points
import proofs.«173938_j1580547974629_1_alg».proof.Proof.KI.Region0
import proofs.«173938_j1580547974629_1_alg».proof.Proof.KI.Region1
import proofs.«173938_j1580547974629_1_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- The same read at the TensorCore's references: region 0's entry contents. -/
abbrev V0 : (c : Dev nD) → (b : Ref sig .tc) → Buf (Elt F) ((c : Thread nD τ).loc b) := fun c b => W0 m ρ c b
/-- At region 0's exit: its windows' arrays at what the pipeline leaves (an input as entered, an output with its
    write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: region 0's exit contents, which region 1 is entered from. -/
abbrev V1 : (c : Dev nD) → (b : Ref sig .tc) → Buf (Elt F) ((c : Thread nD τ).loc b) := fun c b => W1 m ρ c b
/-- At region 0's exit each of its arrays holds what the pipeline leaves, and every other buffer what it held at
    entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- At region 1's exit: its windows' arrays at what the pipeline leaves (an input as entered, an output with its
    write-backs folded), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references: region 1's exit contents. -/
abbrev V2 : (c : Dev nD) → (b : Ref sig .tc) → Buf (Elt F) ((c : Thread nD τ).loc b) := fun c b => W2 m ρ c b
/-- At region 1's exit each of its arrays holds what the pipeline leaves, and every other buffer what it held at
    entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the first host stretch (the transpose): region 2's entry. -/
abbrev W3 : Dev nD → Valuation τ sig (Elt F) := fun c => StableHlo.after hostOps2 (W2 m ρ c)
/-- The same read at the TensorCore's references: region 2's entry contents. -/
abbrev V3 : (c : Dev nD) → (b : Ref sig .tc) → Buf (Elt F) ((c : Thread nD τ).loc b) := fun c b => W3 m ρ c b
/-- At region 2's exit: its windows' arrays at what the pipeline leaves (an input as entered, an output with its
    write-backs folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references: region 2's exit contents. -/
abbrev V4 : (c : Dev nD) → (b : Ref sig .tc) → Buf (Elt F) ((c : Thread nD τ).loc b) := fun c b => W4 m ρ c b
/-- At region 2's exit each of its arrays holds what the pipeline leaves, and every other buffer what it held at
    entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the last host stretch (the reshape, the constant, the division): what @main returns from. -/
abbrev W5 : Dev nD → Valuation τ sig (Elt F) := fun c => StableHlo.after hostOps3 (W4 m ρ c)

/-! ## What the host stretches compute, and what they leave alone -/

/-- The transpose writes `main_v2` alone. -/
theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.unary_writes, Finset.mem_singleton]
    exact StableHlo.devRef_ne_of_ne hb))

/-- `main_v2` is the transpose of region 1's third output. -/
theorem W3_main_v2 (c : Dev nD) :
    (W3 m ρ c (Proc.devRef .tc main_v2) : (⟨S1x4096, .f32⟩ : BufTy).Contents (Elt F))
      = transpose S1x4096 [1, 0] (W2 m ρ c (Proc.devRef .tc main_v1_2) : (⟨S4096x1, .f32⟩ : BufTy).Contents (Elt F)) transposes_S4096x1_S1x4096_1_0 := by
  show StableHlo.after hostOps2 (W2 m ρ c) (Proc.devRef .tc main_v2) = _
  after_results

/-- The last stretch writes `main_v4`, `main_cst` and `main_v5` alone. -/
theorem W5_of_ne (c : Dev nD) (b : Ref sig .tc) (h4 : b ≠ main_v4) (hc : b ≠ main_cst) (h5 : b ≠ main_v5) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.nullary_writes, StableHlo.binary_writes, StableHlo.reshape_writes, Finset.mem_singleton]
    exact ⟨StableHlo.devRef_ne_of_ne h4, StableHlo.devRef_ne_of_ne hc, StableHlo.devRef_ne_of_ne h5⟩))

/-- The returned scalar: region 2's output read as a scalar, divided by the constant. -/
theorem W5_main_v5 (c : Dev nD) :
    (W5 m ρ c (Proc.devRef .tc main_v5) : (⟨S_, .f32⟩ : BufTy).Contents (Elt F))
      = Host.divf (shapeCast S_ (W4 m ρ c (Proc.devRef .tc main_v3) : (⟨S1x1, .f32⟩ : BufTy).Contents (Elt F)) shapeCasts_S1x1_S_)
          (constant S_ .f32 0x4B800000#32) := by
  show StableHlo.after hostOps3 (W4 m ρ c) (Proc.devRef .tc main_v5) = _
  after_results
  rfl

/-! ## The arguments end as launched: no host operation writes one, and a region reads it through an input window or
    not at all, so the fold at an argument's buffer walks back to the launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide) (by decide) (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 1).trans (((dat1 (V1 m ρ) c).arrAt_in 1 rfl _).trans (A_eq1 (V1 m ρ) c 1))
    _ = W0 m ρ c (Proc.devRef .tc main_arg0) := W1_of_ne m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide) (by decide) (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 2).trans (((dat1 (V1 m ρ) c).arrAt_in 2 rfl _).trans (A_eq1 (V1 m ρ) c 2))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps2_fresh : (hostOps2 : List (HloOp τ sig (Elt F))).Forall fun op => op.fresh = ∅ := by
  simp only [List.Forall]; repeat' constructor
/-- No operation of the last host stretch allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at `W0`, left at `W1`. Its arrays are
    split out of the unscoped buffers and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W1`, left at `W2`. Its arrays are
    split out of the unscoped buffers and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W3`, left at `W4`. Its arrays are
    split out of the unscoped buffers and put back at the exit contents; the generator register goes into the
    pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a region per pallas_call, a host segment per stretch from its boundary's contents. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.KernelIdeal.Frm

end
-- ==== Proof.Spec.lean ====
/-
  The mathematics both programs compute, on the extended reals, over plain coordinates.

  For a 4096 x 4096 "target" array tg and "input" array inp:
    colMax tg q      the largest entry of column q of tg (the bottom element when taken over no rows);
    gateV v tg n w   the logistic gate 1 / (1 + exp (0 - 100 (tg[n,w] - 0.55 v[n]))) of row n against a threshold vector v;
    numV v inp tg n  twice the sum over w of min(inp[n,w], tg[n,w]) times the gate;
    rowSum x n       the sum of row n of x;
    totalV nu ri rt  the double sum over (n, k) of nu[n] / (ri[n] + rt[k]);
    result inp tg    totalV of the three row statistics, divided by 2^24 (= 4096 * 4096).
  The float words 0.55, 100, 1, 2 and 2^24 stay as the words both programs print; zero is the real 0.
-/
import Idealize.ShloMosaic.PureOps.Ideal
import Idealize.ShloMosaic.Lib.ValueIdx

noncomputable section

namespace Cert.Spec

open Idealize.ShloMosaic Idealize.ShloMosaic.ValueIdx

/-- A 4096 x 4096 array of extended reals, indexed as the printed programs index it. -/
abbrev Arr2 : Type := (⟨2, ![4096, 4096]⟩ : Shape).Idx → EReal

/-- The word of 0.55 (f32). -/
def c055 : EReal := Ideal.ofBits .f32 0x3F0CCCCD#32
/-- The word of 100. -/
def c100 : EReal := Ideal.ofBits .f32 0x42C80000#32
/-- The word of 1. -/
def c1 : EReal := Ideal.ofBits .f32 0x3F800000#32
/-- The word of 2. -/
def c2 : EReal := Ideal.ofBits .f32 0x40000000#32
/-- The word of 2^24. -/
def cN : EReal := Ideal.ofBits .f32 0x4B800000#32

/-- The largest entry of column `q`. -/
def colMax (tg : Arr2) (q : Fin 4096) : EReal := Finset.univ.sup fun r : Fin 4096 => tg (ix2 r q)

/-- The logistic gate of entry `(n, w)` against the threshold `0.55 * v n`. -/
def gateV (v : Fin 4096 → EReal) (tg : Arr2) (n w : Fin 4096) : EReal :=
  Ideal.div c1 (c1 + Ideal.exp (0 - c100 * (tg (ix2 n w) - v n * c055)))

/-- Twice the gated sum of the entrywise minima of row `n`. -/
def numV (v : Fin 4096 → EReal) (inp tg : Arr2) (n : Fin 4096) : EReal :=
  c2 * ∑ w : Fin 4096, min (inp (ix2 n w)) (tg (ix2 n w)) * gateV v tg n w

/-- The sum of row `n`. -/
def rowSum (x : Arr2) (n : Fin 4096) : EReal := ∑ w : Fin 4096, x (ix2 n w)

/-- The double sum of the quotients `nu n / (ri n + rt k)`. -/
def totalV (nu ri rt : Fin 4096 → EReal) : EReal :=
  ∑ n : Fin 4096, ∑ k : Fin 4096, Ideal.div (nu n) (ri n + rt k)

/-- The whole computation: the mean of the quotients. -/
def result (inp tg : Arr2) : EReal :=
  Ideal.div (totalV (numV (colMax tg) inp tg) (rowSum inp) (rowSum tg)) cN

end Cert.Spec

end
-- ==== Proof.SpecLaws.lean ====
/-
  Two laws of the specification for a computation that walks the 4096 rows in 8 blocks of 512:
  a row index is a block number and a row inside the block (`row8`), the column maximum over all rows is the
  maximum over the blocks of the maxima inside each block, a sum over all rows is the sum over the blocks of the
  sums inside each block, and a maximum or sum over the blocks up to block t + 1 is the one up to block t
  combined with block t + 1.
-/
import proofs.«173938_j1580547974629_1_alg».proof.Proof.Spec

noncomputable section

open scoped BigOperators

namespace Cert.Spec

open Idealize.ShloMosaic Idealize.ShloMosaic.ValueIdx

/-- Row `r` of block `i` (blocks of 512 rows). -/
def row8 (i : Fin 8) (r : Fin 512) : Fin 4096 := ⟨i.val * 512 + r.val, by omega⟩

/-- A row index is a block number together with a row of the block: quotient and remainder by 512. -/
def rowEquiv8 : Fin 8 × Fin 512 ≃ Fin 4096 where
  toFun p := row8 p.1 p.2
  invFun n := (⟨n.val / 512, by omega⟩, ⟨n.val % 512, by omega⟩)
  left_inv p := by
    obtain ⟨i, r⟩ := p
    apply Prod.ext
    · apply Fin.ext; show (i.val * 512 + r.val) / 512 = i.val; omega
    · apply Fin.ext; show (i.val * 512 + r.val) % 512 = r.val; omega
  right_inv n := by
    apply Fin.ext; show n.val / 512 * 512 + n.val % 512 = n.val; omega

/-- A sum over all rows is the sum over the blocks of the sums inside each block. -/
theorem sum_blocks8 {M : Type} [AddCommMonoid M] (f : Fin 4096 → M) :
    ∑ n : Fin 4096, f n = ∑ i : Fin 8, ∑ r : Fin 512, f (row8 i r) := by
  rw [← Equiv.sum_comp rowEquiv8 f, Fintype.sum_prod_type]
  rfl

/-- A maximum over all rows is the maximum over the blocks of the maxima inside each block. -/
theorem sup_blocks8 (f : Fin 4096 → EReal) :
    Finset.univ.sup f = Finset.univ.sup fun i : Fin 8 => Finset.univ.sup fun r : Fin 512 => f (row8 i r) := by
  have h : (Finset.univ.sup fun i : Fin 8 => Finset.univ.sup fun r : Fin 512 => f (row8 i r))
      = (Finset.univ ×ˢ Finset.univ).sup fun p : Fin 8 × Fin 512 => f (rowEquiv8 p) :=
    (Finset.sup_product_left Finset.univ Finset.univ fun p : Fin 8 × Fin 512 => f (rowEquiv8 p)).symm
  rw [h, Finset.univ_product_univ, ← Finset.map_univ_equiv rowEquiv8, Finset.sup_map]
  rfl

/-- The column maximum, block by block. -/
theorem colMax_blocks (tg : Arr2) (q : Fin 4096) :
    colMax tg q = Finset.univ.sup fun i : Fin 8 => Finset.univ.sup fun r : Fin 512 => tg (ValueIdx.ix2 (row8 i r) q) := by
  unfold colMax
  exact sup_blocks8 fun n => tg (ix2 n q)

/-- The blocks up to `t + 1` are the blocks up to `t` and block `t + 1`. -/
theorem filter_fin8_succ (t : ℕ) (ht : t + 1 < 8) :
    (Finset.univ.filter fun i : Fin 8 => i.val ≤ t + 1)
      = insert (⟨t + 1, ht⟩ : Fin 8) (Finset.univ.filter fun i : Fin 8 => i.val ≤ t) := by
  ext i
  simp only [Finset.mem_filter, Finset.mem_univ, true_and, Finset.mem_insert, Fin.ext_iff]
  omega

/-- A maximum over the blocks up to `t + 1` is the one up to `t` joined with block `t + 1`. -/
theorem sup_fin8_succ (g : Fin 8 → EReal) (t : ℕ) (ht : t + 1 < 8) :
    (Finset.univ.filter fun i : Fin 8 => i.val ≤ t + 1).sup g
      = max ((Finset.univ.filter fun i : Fin 8 => i.val ≤ t).sup g) (g ⟨t + 1, ht⟩) := by
  rw [filter_fin8_succ t ht, Finset.sup_insert]
  exact max_comm _ _

/-- A sum over the blocks up to `t + 1` is the one up to `t` plus block `t + 1`. -/
theorem sum_fin8_succ {M : Type} [AddCommMonoid M] (g : Fin 8 → M) (t : ℕ) (ht : t + 1 < 8) :
    (∑ i ∈ Finset.univ.filter fun i : Fin 8 => i.val ≤ t + 1, g i)
      = (∑ i ∈ Finset.univ.filter fun i : Fin 8 => i.val ≤ t, g i) + g ⟨t + 1, ht⟩ := by
  rw [filter_fin8_succ t ht, Finset.sum_insert, add_comm]
  simp only [Finset.mem_filter, Finset.mem_univ, true_and]
  omega

end Cert.Spec

end
-- ==== Proof.LibMaxReduce.lean ====
/-
  Maximum reductions read at an index, over the extended reals, as folds of `max` over one coordinate.

  A vector maximum-reduction of an [a, b] array over its rows, at lane q, is the fold of max from the accumulator's
  value over the entries (j, q); the host's reduce with a maximum body over the middle axis of an [a, b, c] array,
  at (n, k), is the fold of max from the initial value over the entries (n, j, k).  Each index with the reduced
  coordinate put back is named by its coordinates, so a proof continues entry by entry.
-/
import Idealize.ShloMosaic.PureOps.Ideal.Laws
import Idealize.ShloMosaic.PureOps.Reduce
import Idealize.ShloMosaic.Lib.ValueIdx

noncomputable section

namespace MaxReduce

open Idealize.ShloMosaic Idealize.ShloMosaic.ValueIdx

variable {a b c : ℕ}

/-- In an [a, b] array reduced over its rows, the reduced index `q` with row `j` put back is (j, q). -/
theorem lift_rows (h : (⟨2, ![a, b]⟩ : Shape).Reduces [0] (⟨1, ![b]⟩ : Shape)) (q : Fin b)
    (j : Fin ((⟨2, ![a, b]⟩ : Shape).size 0)) : h.lift (ix1 q) j = ix2 (⟨j.val, j.isLt⟩ : Fin a) q := by
  funext d; apply Fin.ext
  fin_cases d <;> rfl

/-- A vector maximum-reduction of an [a, b] array over its rows, at lane `q`: the fold of max from the accumulator's
    value over the rows' entries at that lane. -/
theorem multiReduction_max_rows {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (q : Fin b) :
    multiReduction .maximumf [0] (⟨1, ![b]⟩ : Shape) src acc h hφ hacc (ix1 q)
      = (Finset.univ : Finset (Fin a)).fold max (Ideal.ofBits φ acc) fun j => src (ix2 j q) := by
  refine (Ideal.multiReduction_maximumf_single src acc h hφ hacc (ix1 q)).trans ?_
  refine congrArg (fun f => Finset.fold max (Ideal.ofBits φ acc) f (Finset.univ : Finset (Fin a))) ?_
  funext j
  exact congrArg src (lift_rows h q j)

/-- In an [a, b, c] array reduced over its middle axis, the reduced index (n, k) with coordinate `j` put back is
    (n, j, k). -/
theorem lift_mid (h : (⟨3, ![a, b, c]⟩ : Shape).Reduces [1] (⟨2, ![a, c]⟩ : Shape)) (n : Fin a) (k : Fin c)
    (j : Fin ((⟨3, ![a, b, c]⟩ : Shape).size 1)) : h.lift (ix2 n k) j = ix3 n (⟨j.val, j.isLt⟩ : Fin b) k := by
  funext d; apply Fin.ext
  fin_cases d <;> rfl

/-- The host's reduce with a maximum body over the middle axis of an [a, b, c] array, at (n, k): the fold of max
    from the initial value's element over the entries (n, j, k). -/
theorem hostReduce_max_mid {φ : FTy} {u : Shape} (x : FVec Ideal ⟨3, ![a, b, c]⟩ φ) (init : u.Idx → Ideal φ)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < u.numel) (n : Fin a) (k : Fin c) :
    Host.reduce FloatOps.maximumf x init h' hu (ix2 n k)
      = (Finset.univ : Finset (Fin b)).fold max (init (Shape.Idx.first hu)) fun j => x (ix3 n j k) := by
  rw [Host.reduce_eq_fold_single FloatOps.maximumf x init h' h hu]
  refine congrArg (fun f => Finset.fold max (init (Shape.Idx.first hu)) f (Finset.univ : Finset (Fin b))) ?_
  funext j
  exact congrArg x (lift_mid h n k j)

end MaxReduce

end
-- ==== Proof.KI.Value0.lean ====
/-
  What region 0 leaves in the (1, 4096) array of column maxima, on the extended reals.

  The body's stored value at the first grid point is the column maxima of the 512-row block it read; at a later point
  it is the entrywise maximum of the running row and the block's column maxima.  Block t of the target is its rows
  512 t .. 512 t + 511.  So after point n the running row holds, at column q, the largest entry of column q over the
  blocks 0 .. n; the one write-back, after the last point, puts the running row into the array, which therefore holds
  the column maxima of the whole target: the supremum over 4096 rows is the supremum over 8 blocks of the suprema over
  512 rows.
-/
import proofs.«173938_j1580547974629_1_alg».proof.Proof.KI.Region0
import proofs.«173938_j1580547974629_1_alg».proof.Proof.Spec
import proofs.«173938_j1580547974629_1_alg».proof.Proof.SpecLaws
import proofs.«173938_j1580547974629_1_alg».proof.Proof.LibMaxReduce
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

section AnyInstance

variable {F : FTy → Type} [FloatOps F]

/-- A zero offset on both axes. -/
theorem hz2 : (![0, 0] : Fin 2 → Nat) = fun _ => 0 := funext fun a => by fin_cases a <;> rfl

/-- At the first point the output buffer ends holding the block's column maxima. -/
theorem out0_A_1_eq (c : Dev nD) (i : grid0.Coords) (arg1 : Memref sig .tc .vmem S512x4096 .f32) (harg1 : arg1.IsWhole) (arg2 : Memref sig .tc .vmem S1x4096 .f32) (harg2 : arg2.IsWhole)
    (hc1 : k0_cond1 i = 1#1) (hc2 : ¬ k0_cond2 i = 1#1) (x0 : Vec F S512x4096 .f32) :
    out0_A_1 c i arg1 harg1 arg2 harg2 hc1 hc2 x0 = k0_pay1 x0 := by
  unfold out0_A_1
  rw [View.read_writes_eq_canon _ _ _ (cover0_A_1 c i arg1 harg1 arg2 harg2 hc1 hc2 x0)]
  unfold kernelRun0_A
  dsimp only
  sl_unfold_words
  rw [View.canon_unit_zero hz2]
  simp only [View.readAt_eq_ld, harg1.read_unread, View.ld_unit_zero (S := S512x4096) hz2]

/-- At a later point it ends holding the maximum of what it held and the block's column maxima. -/
theorem out0_B_1_eq (c : Dev nD) (i : grid0.Coords) (arg1 : Memref sig .tc .vmem S512x4096 .f32) (harg1 : arg1.IsWhole) (arg2 : Memref sig .tc .vmem S1x4096 .f32) (harg2 : arg2.IsWhole)
    (hc1 : ¬ k0_cond1 i = 1#1) (hc2 : k0_cond2 i = 1#1) (x0 : Vec F S512x4096 .f32) (xo1 : Vec F S1x4096 .f32) :
    out0_B_1 c i arg1 harg1 arg2 harg2 hc1 hc2 x0 xo1 = k0_pay2 x0 xo1 := by
  unfold out0_B_1
  rw [View.read_writes_eq_canon _ _ _ (cover0_B_1 c i arg1 harg1 arg2 harg2 hc1 hc2 x0 xo1)]
  unfold kernelRun0_B
  dsimp only
  sl_unfold_words
  rw [View.canon_unit_zero hz2]
  simp only [View.readAt_eq_ld, harg1.read_unread, harg2.read_unread, View.ld_unit_zero (S := S512x4096) hz2, View.ld_unit_zero (S := S1x4096) hz2]

end AnyInstance

/-! ## On the extended reals -/

/-- The word of minus infinity is the bottom element. -/
theorem ofBits_neg_inf : Ideal.ofBits .f32 0xFF800000#32 = (⊥ : EReal) := by simp [Ideal.ofBits, Ideal.ieee]

/-- A fold of max from the bottom element is the supremum. -/
theorem fold_max_bot {ι : Type} (s : Finset ι) (f : ι → EReal) : s.fold max ⊥ f = s.sup f := rfl

/-- The block's column maxima at column `q`. -/
theorem pay1_apply (x0 : Vec Ideal S512x4096 .f32) (q : Fin 4096) :
    k0_pay1 (F := Ideal) x0 (ix2 (0 : Fin 1) q) = Finset.univ.sup fun r : Fin 512 => x0 (ix2 r q) := by
  unfold k0_pay1
  refine (shapeCast_a_1a_apply _ _ (0 : Fin 1) q).trans ?_
  refine (MaxReduce.multiReduction_max_rows x0 _ _ _ _ q).trans ?_
  rw [ofBits_neg_inf]
  exact fold_max_bot _ _

/-- The accumulated row at column `q`. -/
theorem pay2_apply (x0 : Vec Ideal S512x4096 .f32) (xo : Vec Ideal S1x4096 .f32) (q : Fin 4096) :
    k0_pay2 (F := Ideal) x0 xo (ix2 (0 : Fin 1) q) = max (xo (ix2 (0 : Fin 1) q)) (k0_pay1 (F := Ideal) x0 (ix2 (0 : Fin 1) q)) := by
  unfold k0_pay2
  rw [shapeCast_self]
  rfl

variable (V : (c : Dev nD) → (b : Ref sig .tc) → Buf (Elt Ideal) ((c : Thread nD τ).loc b))

/-- The input window's index map over the grid: block `t` starts at row block `t`, column block 0. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry `(r, q)` of block `t` of the target is entry `(512 t + r, q)` of the target. -/
theorem iblk0_0_apply (c : Dev nD) (t : Fin cfg0.N) (ht : t.val < 8) (r : Fin 512) (q : Fin 4096) :
    iblk0 (F := Ideal) V c 0 t (ix2 r q) = V c main_arg1 (ix2 (Cert.Spec.row8 ⟨t.val, ht⟩ r) q) := by
  obtain ⟨e0, e1⟩ := idx0_0 t
  show V c main_arg1 (((cfg0.win 0).blk t).view.emb (ix2 r q)) = V c main_arg1 (ix2 (Cert.Spec.row8 ⟨t.val, ht⟩ r) q)
  refine congrArg (V c main_arg1) ?_
  funext a; apply Fin.ext
  match a with
  | ⟨0, _⟩ => show win0_0.index t (0 : Fin 2) * 512 + 1 * r.val = t.val * 512 + r.val; omega
  | ⟨1, _⟩ => show win0_0.index t (1 : Fin 2) * 4096 + 1 * q.val = q.val; omega

/-- The column maxima of block `i` of the target. -/
def blockMax (tg : Cert.Spec.Arr2) (q : Fin 4096) (i : Fin 8) : EReal :=
  Finset.univ.sup fun r : Fin 512 => tg (ix2 (Cert.Spec.row8 i r) q)

/-- After point `n` the running row holds, at column `q`, the largest of the blocks' column maxima up to block `n`. -/
theorem outsAt0_apply (c : Dev nD) (q : Fin 4096) : ∀ (n : ℕ) (hn : n < cfg0.N),
    outsAt0 (F := Ideal) V c n hn (ix2 (0 : Fin 1) q)
      = (Finset.univ.filter fun i : Fin 8 => i.val ≤ n).sup (blockMax (V c main_arg1) q) := by
  intro n
  induction n with
  | zero =>
    intro hn
    have h8 : (0 : ℕ) < 8 := by decide
    rw [outsAt0_A V c ⟨0, hn⟩ (Nat.zero_mod _), out0_A_1_eq, pay1_apply]
    have hf : (Finset.univ.filter fun i : Fin 8 => i.val ≤ 0) = {(0 : Fin 8)} := by decide
    rw [hf, Finset.sup_singleton]
    unfold blockMax
    refine Finset.sup_congr rfl fun r _ => ?_
    exact iblk0_0_apply V c ⟨0, hn⟩ h8 r q
  | succ n ih =>
    intro hn
    have h8 : n + 1 < 8 := lt_of_lt_of_eq hn (show cfg0.N = 8 from N_0)
    have h0 : ¬ (n + 1) % 8 = 0 := by omega
    have hB := outsAt0_B V c ⟨n + 1, hn⟩ h0
    rw [hB, out0_B_1_eq, pay2_apply, pay1_apply]
    have ih' := ih (Nat.lt_of_succ_lt hn)
    rw [Cert.Spec.sup_fin8_succ (blockMax (V c main_arg1) q) n h8]
    refine congrArg₂ max ?_ ?_
    · exact ih'
    · unfold blockMax
      refine Finset.sup_congr rfl fun r _ => ?_
      exact iblk0_0_apply V c ⟨n + 1, hn⟩ h8 r q

/-! ## The array after the region -/

/-- The output window's index map over the grid: always block (0, 0). -/
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- An index of the array is in point `t`'s block iff each coordinate is in the block's range on its axis. -/
theorem mem_blk0_1 (t : Fin cfg0.N) (i : S1x4096.Idx) :
    i ∈ ((cfg0.win 1).blk t).view.set ↔ ∀ a : Fin 2, win0_1.index t a * S1x4096.size a ≤ (i a).val ∧ (i a).val < win0_1.index t a * S1x4096.size a + S1x4096.size a := by
  show i ∈ ((View.whole main_v0).slice (win0_1.rect t)).set ↔ _
  rw [View.set_slice_whole, Rect.mem_set_unit]
  exact Iff.rfl

/-- Over all eight blocks the running maximum is the column maximum. -/
theorem sup_blockMax (tg : Cert.Spec.Arr2) (q : Fin 4096) :
    (Finset.univ.filter fun i : Fin 8 => i.val ≤ 7).sup (blockMax tg q) = Cert.Spec.colMax tg q := by
  have hf : (Finset.univ.filter fun i : Fin 8 => i.val ≤ 7) = Finset.univ := by decide
  rw [hf, Cert.Spec.colMax_blocks]
  rfl

/-- After the region the array of column maxima holds, at column `q`, the largest entry of column `q` of the target
    as the region found it. -/
theorem final0_1 (c : Dev nD) :
    (dat0 (F := Ideal) V c).arrAt 1 cfg0.N = fun j => Cert.Spec.colMax (V c main_arg1) (j 1) := by
  have hlast : (7 : ℕ) < cfg0.N := by rw [show cfg0.N = 8 from N_0]; decide
  refine (dat0 V c).arrAt_eq_of_cover 1 _ (fun t hf => ?_) (fun i => ?_)
  · have ht : t.val % 8 = 7 := (flush0_1 t).mp hf
    have hN : t.val < 8 := lt_of_lt_of_eq t.isLt (show cfg0.N = 8 from N_0)
    obtain ⟨e0, e1⟩ := idx0_1 t
    show (cfg0.win 1).cut (grid0.coords t) ((dat0 V c).after 1 t) = _
    rw [after0_1]
    refine funext fun (y : S1x4096.Idx) => ?_
    obtain ⟨p, q, rfl⟩ : ∃ (p : Fin 1) (q : Fin 4096), y = ix2 p q := ⟨y 0, y 1, eq_ix2 y⟩
    obtain rfl : p = 0 := Subsingleton.elim _ _
    show outsAt0 V c t.val t.isLt (ix2 (0 : Fin 1) q) = Cert.Spec.colMax (V c main_arg1) ((((cfg0.win 1).blk t).view.emb (ix2 (0 : Fin 1) q)) 1)
    have he : (((cfg0.win 1).blk t).view.emb (ix2 (0 : Fin 1) q)) 1 = q :=
      Fin.ext (by show win0_1.index t (1 : Fin 2) * 4096 + 1 * q.val = q.val; omega)
    rw [he, outsAt0_apply V c q t.val t.isLt]
    have h7 : t.val = 7 := by omega
    rw [h7]
    exact sup_blockMax _ q
  · refine ⟨⟨7, hlast⟩, (flush0_1 ⟨7, hlast⟩).mpr (show (7 : ℕ) % 8 = 7 from rfl), ?_⟩
    obtain ⟨e0, e1⟩ := idx0_1 ⟨7, hlast⟩
    rw [mem_blk0_1]
    intro a
    match a with
    | ⟨0, _⟩ => show win0_1.index ⟨7, hlast⟩ (0 : Fin 2) * 1 ≤ (i 0).val ∧ (i 0).val < win0_1.index ⟨7, hlast⟩ (0 : Fin 2) * 1 + 1; have := (i 0).isLt; have : (i 0).val < 1 := this; omega
    | ⟨1, _⟩ => show win0_1.index ⟨7, hlast⟩ (1 : Fin 2) * 4096 ≤ (i 1).val ∧ (i 1).val < win0_1.index ⟨7, hlast⟩ (1 : Fin 2) * 4096 + 4096; have : (i 1).val < 4096 := (i 1).isLt; omega

end Cert.KernelIdeal.Frm

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.KI.Value1.lean ====
/-
  Region 1's three output arrays after the region, as functions of the arrays the region is entered with.

  Row n of the first output is twice the sum over w of min(input[n,w], target[n,w]) times the logistic gate of
  target[n,w] against 0.55 times the n-th entry of the maxima vector; rows of the second and third are the row sums of
  the input and of the target. First each payload at a row of its 256 x 1 column, over variables of the blocks' types;
  then what a grid point writes back as the block of that function; then the blocks cover the array.
-/
import proofs.«173938_j1580547974629_1_alg».proof.Proof.KI.Region1
import proofs.«173938_j1580547974629_1_alg».proof.Proof.Spec
import proofs.«173938_j1580547974629_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The payloads at a row -/

/-- The lane sum of a 256 x 4096 block cast to a column, at row `p`: the sum of the block's row `p`. -/
theorem rowsum_col_apply1 (x : FVec Ideal S256x4096 .f32) (p : Fin 256) :
    shapeCast S256x1 (multiReduction .add [1] S256 x 0x00000000#32 reduces_S256x4096_S256 (.inl rfl) rfl) shapeCasts_S256_S256x1 (ix2 p (0 : Fin 1))
      = ∑ w : Fin 4096, x (ix2 p w) := by
  refine (PhysLoss.shapeCast_a_a1_apply _ shapeCasts_S256_S256x1 p (0 : Fin 1)).trans ?_
  refine (Ideal.multiReduction_add_single x 0x00000000#32 reduces_S256x4096_S256 (.inl rfl) rfl (ix1 p)).trans ?_
  refine Finset.sum_congr rfl fun w _ => congrArg x ?_
  funext a
  match a with
  | ⟨0, _⟩ => rfl
  | ⟨1, _⟩ => rfl

/-- The second payload at row `p`: the sum of the input block's row. -/
theorem k1_pay2_apply (v1 : Vec Ideal S256x4096 .f32) (p : Fin 256) :
    k1_pay2 v1 (ix2 p (0 : Fin 1)) = ∑ w : Fin 4096, v1 (ix2 p w) := by
  unfold k1_pay2
  exact rowsum_col_apply1 v1 p

/-- The third payload at row `p`: the sum of the target block's row. -/
theorem k1_pay3_apply (v0 : Vec Ideal S256x4096 .f32) (p : Fin 256) :
    k1_pay3 v0 (ix2 p (0 : Fin 1)) = ∑ w : Fin 4096, v0 (ix2 p w) := by
  unfold k1_pay3
  exact rowsum_col_apply1 v0 p

/-- The 1 x 256 block transposed to a column, at row `p`: the block's entry `p`. -/
theorem transpose_col_apply1 (x : FVec Ideal S1x256 .f32) (p : Fin 256) :
    transpose S256x1 [1, 0] x transposes_S1x256_p1_0_S256x1 (ix2 p (0 : Fin 1)) = x (ix2 (0 : Fin 1) p) := by
  refine transpose_apply [1, 0] x transposes_S1x256_p1_0_S256x1 (ix2 p (0 : Fin 1)) (ix2 (0 : Fin 1) p) fun b => ?_
  match b with
  | ⟨0, _⟩ => rfl
  | ⟨1, _⟩ => rfl

/-- The first payload at row `p`: twice the gated sum of the entrywise minima of the row. -/
theorem k1_pay1_apply (v0 v1 : Vec Ideal S256x4096 .f32) (v2 : Vec Ideal S1x256 .f32) (p : Fin 256) :
    k1_pay1 v0 v1 v2 (ix2 p (0 : Fin 1))
      = Cert.Spec.c2 * ∑ w : Fin 4096, min (v1 (ix2 p w)) (v0 (ix2 p w))
          * Ideal.div Cert.Spec.c1 (Cert.Spec.c1 + Ideal.exp (0 - Cert.Spec.c100 * (v0 (ix2 p w) - v2 (ix2 (0 : Fin 1) p) * Cert.Spec.c055))) := by
  unfold k1_pay1
  dsimp only
  rw [mulf_apply, broadcast_apply, rowsum_col_apply1]
  refine congrArg₂ (· * ·) rfl (Finset.sum_congr rfl fun w _ => ?_)
  rw [mulf_apply, minimumf_apply, divf_apply, broadcast_apply, addf_apply, broadcast_apply]
  refine congrArg₂ (· * ·) rfl (congrArg₂ Ideal.div rfl (congrArg₂ (· + ·) rfl ?_))
  show Ideal.exp _ = _
  refine congrArg Ideal.exp ?_
  rw [subf_apply, broadcast_apply, mulf_apply, broadcast_apply, subf_apply, PhysLoss.broadcastTo_a1_ab_apply, mulf_apply,
    broadcast_apply, shapeCast_self, transpose_col_apply1]
  show Ideal.ofBits .f32 0x00000000#32 - _ = _
  rw [Ideal.ofBits_zero_f32]
  rfl

/-! ## The blocks as rows of the arrays -/

theorem hz1 : (![0, 0] : Fin 2 → Nat) = fun _ => 0 := funext fun a => by fin_cases a <;> rfl

/-- The maxima vector the region is entered with, by column. -/
def vals1 (c : Dev nD) : Fin 4096 → EReal := fun n => V c main_v0 (ValueIdx.ix2 (0 : Fin 1) n)

/-- The index maps over the grid: at point `t` window 0's block is column block `t` of the one-row array, every other
    window's is row block `t` of its array. -/
theorem idx_facts1 : ∀ t : Fin cfg1.N,
    win1_0.index t (0 : Fin 2) = 0 ∧ win1_0.index t (1 : Fin 2) = t.val
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Entry `p` of point `t`'s block of the maxima vector is its entry `256 t + p`. -/
theorem iblk1_0_apply (c : Dev nD) (t : Fin cfg1.N) (p : Fin 256) (n : Fin 4096) (hn : n.val = 256 * t.val + p.val) :
    (iblk1 V c 0 t : Vec Ideal S1x256 .f32) (ix2 (0 : Fin 1) p) = vals1 V c n := by
  obtain ⟨e0, e1, -⟩ := idx_facts1 t
  unfold iblk1 vals1
  rw [View.read_apply]
  show V c main_v0 _ = V c main_v0 _
  congr 1
  funext a
  apply Fin.ext
  match a with
  | ⟨0, _⟩ => show win1_0.index t (0 : Fin 2) * 1 + 1 * 0 = 0; omega
  | ⟨1, _⟩ => show win1_0.index t (1 : Fin 2) * 256 + 1 * p.val = n.val; omega

/-- Row `p` of point `t`'s block of the input is row `256 t + p` of the input. -/
theorem iblk1_1_apply (c : Dev nD) (t : Fin cfg1.N) (p : Fin 256) (n : Fin 4096) (hn : n.val = 256 * t.val + p.val) (w : Fin 4096) :
    (iblk1 V c 1 t : Vec Ideal S256x4096 .f32) (ix2 p w) = (V c main_arg0 : Cert.Spec.Arr2) (ix2 n w) := by
  obtain ⟨-, -, e0, e1, -⟩ := idx_facts1 t
  unfold iblk1
  rw [View.read_apply]
  show V c main_arg0 _ = V c main_arg0 _
  congr 1
  funext a
  apply Fin.ext
  match a with
  | ⟨0, _⟩ => show win1_1.index t (0 : Fin 2) * 256 + 1 * p.val = n.val; omega
  | ⟨1, _⟩ => show win1_1.index t (1 : Fin 2) * 4096 + 1 * w.val = w.val; omega

/-- Row `p` of point `t`'s block of the target is row `256 t + p` of the target. -/
theorem iblk1_2_apply (c : Dev nD) (t : Fin cfg1.N) (p : Fin 256) (n : Fin 4096) (hn : n.val = 256 * t.val + p.val) (w : Fin 4096) :
    (iblk1 V c 2 t : Vec Ideal S256x4096 .f32) (ix2 p w) = (V c main_arg1 : Cert.Spec.Arr2) (ix2 n w) := by
  obtain ⟨-, -, -, -, e0, e1, -⟩ := idx_facts1 t
  unfold iblk1
  rw [View.read_apply]
  show V c main_arg1 _ = V c main_arg1 _
  congr 1
  funext a
  apply Fin.ext
  match a with
  | ⟨0, _⟩ => show win1_2.index t (0 : Fin 2) * 256 + 1 * p.val = n.val; omega
  | ⟨1, _⟩ => show win1_2.index t (1 : Fin 2) * 4096 + 1 * w.val = w.val; omega

/-! ## What a point computes for a row -/

/-- Row `p` of the first column point `t` stores is the specification's gated sum at row `256 t + p`. -/
theorem point1_3 (c : Dev nD) (t : Fin cfg1.N) (p : Fin 256) (n : Fin 4096) (hn : n.val = 256 * t.val + p.val) :
    k1_pay1 (iblk1 V c 2 t) (iblk1 V c 1 t) (iblk1 V c 0 t) (ix2 p (0 : Fin 1))
      = Cert.Spec.numV (vals1 V c) (V c main_arg0) (V c main_arg1) n := by
  refine (k1_pay1_apply _ _ _ p).trans ?_
  unfold Cert.Spec.numV Cert.Spec.gateV
  rw [iblk1_0_apply V c t p n hn]
  refine congrArg₂ (· * ·) rfl (Finset.sum_congr rfl fun w _ => ?_)
  rw [iblk1_1_apply V c t p n hn w, iblk1_2_apply V c t p n hn w]

/-- Row `p` of the second column point `t` stores is the input's row sum at row `256 t + p`. -/
theorem point1_4 (c : Dev nD) (t : Fin cfg1.N) (p : Fin 256) (n : Fin 4096) (hn : n.val = 256 * t.val + p.val) :
    k1_pay2 (iblk1 V c 1 t) (ix2 p (0 : Fin 1)) = Cert.Spec.rowSum (V c main_arg0) n := by
  refine (k1_pay2_apply _ p).trans ?_
  unfold Cert.Spec.rowSum
  refine Finset.sum_congr rfl fun w _ => ?_
  rw [iblk1_1_apply V c t p n hn w]

/-- Row `p` of the third column point `t` stores is the target's row sum at row `256 t + p`. -/
theorem point1_5 (c : Dev nD) (t : Fin cfg1.N) (p : Fin 256) (n : Fin 4096) (hn : n.val = 256 * t.val + p.val) :
    k1_pay3 (iblk1 V c 2 t) (ix2 p (0 : Fin 1)) = Cert.Spec.rowSum (V c main_arg1) n := by
  refine (k1_pay3_apply _ p).trans ?_
  unfold Cert.Spec.rowSum
  refine Finset.sum_congr rfl fun w _ => ?_
  rw [iblk1_2_apply V c t p n hn w]

/-! ## What a point writes back -/

/-- Point `t` writes back, to the first output, block `t` of the specification's gated sums. -/
theorem flushed1_3_eq (c : Dev nD) (t : Fin cfg1.N) :
    (dat1 (F := Ideal) V c).flushed 3 t = ((cfg1.win 3).blk t).view.read (Elt Ideal)
      (fun j : S4096x1.Idx => Cert.Spec.numV (vals1 V c) (V c main_arg0) (V c main_arg1) (j 0)) := by
  show (cfg1.win 3).cut (grid1.coords t) ((dat1 V c).after 3 t) = _
  rw [after1_3]
  unfold out1_3
  rw [View.canon_unit_zero hz1]
  simp only [View.ld_unit_zero (S := S256x4096) hz1, View.ld_unit_zero (S := S1x256) hz1]
  refine funext fun (j : S256x1.Idx) => ?_
  obtain ⟨p, u, rfl⟩ : ∃ (p : Fin 256) (u : Fin 1), j = ix2 p u := ⟨j 0, j 1, eq_ix2 j⟩
  obtain rfl : u = 0 := Subsingleton.elim _ _
  obtain ⟨-, -, -, -, -, -, e0, -⟩ := idx_facts1 t
  show k1_pay1 (iblk1 V c 2 t) (iblk1 V c 1 t) (iblk1 V c 0 t) (ix2 p (0 : Fin 1))
    = Cert.Spec.numV (vals1 V c) (V c main_arg0) (V c main_arg1) ((((cfg1.win 3).blk t).view.emb (ix2 p (0 : Fin 1))) (0 : Fin 2))
  refine point1_3 V c t p _ ?_
  show win1_3.index t (0 : Fin 2) * 256 + 1 * p.val = 256 * t.val + p.val
  omega

/-- Point `t` writes back, to the second output, block `t` of the input's row sums. -/
theorem flushed1_4_eq (c : Dev nD) (t : Fin cfg1.N) :
    (dat1 (F := Ideal) V c).flushed 4 t = ((cfg1.win 4).blk t).view.read (Elt Ideal)
      (fun j : S4096x1.Idx => Cert.Spec.rowSum (V c main_arg0) (j 0)) := by
  show (cfg1.win 4).cut (grid1.coords t) ((dat1 V c).after 4 t) = _
  rw [after1_4]
  unfold out1_4
  rw [View.canon_unit_zero hz1]
  simp only [View.ld_unit_zero (S := S256x4096) hz1]
  refine funext fun (j : S256x1.Idx) => ?_
  obtain ⟨p, u, rfl⟩ : ∃ (p : Fin 256) (u : Fin 1), j = ix2 p u := ⟨j 0, j 1, eq_ix2 j⟩
  obtain rfl : u = 0 := Subsingleton.elim _ _
  obtain ⟨-, -, -, -, -, -, -, -, e0, -⟩ := idx_facts1 t
  show k1_pay2 (iblk1 V c 1 t) (ix2 p (0 : Fin 1))
    = Cert.Spec.rowSum (V c main_arg0) ((((cfg1.win 4).blk t).view.emb (ix2 p (0 : Fin 1))) (0 : Fin 2))
  refine point1_4 V c t p _ ?_
  show win1_4.index t (0 : Fin 2) * 256 + 1 * p.val = 256 * t.val + p.val
  omega

/-- Point `t` writes back, to the third output, block `t` of the target's row sums. -/
theorem flushed1_5_eq (c : Dev nD) (t : Fin cfg1.N) :
    (dat1 (F := Ideal) V c).flushed 5 t = ((cfg1.win 5).blk t).view.read (Elt Ideal)
      (fun j : S4096x1.Idx => Cert.Spec.rowSum (V c main_arg1) (j 0)) := by
  show (cfg1.win 5).cut (grid1.coords t) ((dat1 V c).after 5 t) = _
  rw [after1_5]
  unfold out1_5
  rw [View.canon_unit_zero hz1]
  simp only [View.ld_unit_zero (S := S256x4096) hz1]
  refine funext fun (j : S256x1.Idx) => ?_
  obtain ⟨p, u, rfl⟩ : ∃ (p : Fin 256) (u : Fin 1), j = ix2 p u := ⟨j 0, j 1, eq_ix2 j⟩
  obtain rfl : u = 0 := Subsingleton.elim _ _
  obtain ⟨-, -, -, -, -, -, -, -, -, -, e0, -⟩ := idx_facts1 t
  show k1_pay3 (iblk1 V c 2 t) (ix2 p (0 : Fin 1))
    = Cert.Spec.rowSum (V c main_arg1) ((((cfg1.win 5).blk t).view.emb (ix2 p (0 : Fin 1))) (0 : Fin 2))
  refine point1_5 V c t p _ ?_
  show win1_5.index t (0 : Fin 2) * 256 + 1 * p.val = 256 * t.val + p.val
  omega

/-! ## The blocks cover the arrays -/

/-- An index of the array is in point `t`'s block of window 3 iff each coordinate is in the block's range on its axis. -/
theorem mem_blk1_3 (t : Fin cfg1.N) (i : S4096x1.Idx) :
    i ∈ ((cfg1.win 3).blk t).view.set ↔ ∀ a : Fin 2, win1_3.index t a * S256x1.size a ≤ (i a).val ∧ (i a).val < win1_3.index t a * S256x1.size a + S256x1.size a := by
  show i ∈ ((View.whole main_v1_0).slice (win1_3.rect t)).set ↔ _
  rw [View.set_slice_whole, Rect.mem_set_unit]
  exact Iff.rfl

/-- Row `r` of window 3's array is in the block of point `r / 256`. -/
theorem covered1_3 (i : S4096x1.Idx) : ∃ t : Fin cfg1.N, (cfg1.win 3).flush t = true ∧ i ∈ ((cfg1.win 3).blk t).view.set := by
  have hi0 : (i 0).val < 4096 := (i 0).isLt
  have hi1 : (i 1).val < 1 := (i 1).isLt
  have hlt : (i 0).val / 256 < cfg1.N := by show _ < grid1.N; rw [N_1]; omega
  obtain ⟨-, -, -, -, -, -, e3, e3', e4, e4', e5, e5'⟩ := idx_facts1 ⟨(i 0).val / 256, hlt⟩
  refine ⟨⟨(i 0).val / 256, hlt⟩, flush1_3 _, ?_⟩
  rw [mem_blk1_3]
  intro a
  match a with
  | ⟨0, _⟩ =>
    show win1_3.index ⟨(i 0).val / 256, hlt⟩ (0 : Fin 2) * 256 ≤ (i 0).val ∧ (i 0).val < win1_3.index ⟨(i 0).val / 256, hlt⟩ (0 : Fin 2) * 256 + 256
    rw [e3]; show (i 0).val / 256 * 256 ≤ (i 0).val ∧ (i 0).val < (i 0).val / 256 * 256 + 256; omega
  | ⟨1, _⟩ =>
    show win1_3.index ⟨(i 0).val / 256, hlt⟩ (1 : Fin 2) * 1 ≤ (i 1).val ∧ (i 1).val < win1_3.index ⟨(i 0).val / 256, hlt⟩ (1 : Fin 2) * 1 + 1
    rw [e3']; omega

/-- An index of the array is in point `t`'s block of window 4 iff each coordinate is in the block's range on its axis. -/
theorem mem_blk1_4 (t : Fin cfg1.N) (i : S4096x1.Idx) :
    i ∈ ((cfg1.win 4).blk t).view.set ↔ ∀ a : Fin 2, win1_4.index t a * S256x1.size a ≤ (i a).val ∧ (i a).val < win1_4.index t a * S256x1.size a + S256x1.size a := by
  show i ∈ ((View.whole main_v1_1).slice (win1_4.rect t)).set ↔ _
  rw [View.set_slice_whole, Rect.mem_set_unit]
  exact Iff.rfl

/-- Row `r` of window 4's array is in the block of point `r / 256`. -/
theorem covered1_4 (i : S4096x1.Idx) : ∃ t : Fin cfg1.N, (cfg1.win 4).flush t = true ∧ i ∈ ((cfg1.win 4).blk t).view.set := by
  have hi0 : (i 0).val < 4096 := (i 0).isLt
  have hi1 : (i 1).val < 1 := (i 1).isLt
  have hlt : (i 0).val / 256 < cfg1.N := by show _ < grid1.N; rw [N_1]; omega
  obtain ⟨-, -, -, -, -, -, e3, e3', e4, e4', e5, e5'⟩ := idx_facts1 ⟨(i 0).val / 256, hlt⟩
  refine ⟨⟨(i 0).val / 256, hlt⟩, flush1_4 _, ?_⟩
  rw [mem_blk1_4]
  intro a
  match a with
  | ⟨0, _⟩ =>
    show win1_4.index ⟨(i 0).val / 256, hlt⟩ (0 : Fin 2) * 256 ≤ (i 0).val ∧ (i 0).val < win1_4.index ⟨(i 0).val / 256, hlt⟩ (0 : Fin 2) * 256 + 256
    rw [e4]; show (i 0).val / 256 * 256 ≤ (i 0).val ∧ (i 0).val < (i 0).val / 256 * 256 + 256; omega
  | ⟨1, _⟩ =>
    show win1_4.index ⟨(i 0).val / 256, hlt⟩ (1 : Fin 2) * 1 ≤ (i 1).val ∧ (i 1).val < win1_4.index ⟨(i 0).val / 256, hlt⟩ (1 : Fin 2) * 1 + 1
    rw [e4']; omega

/-- An index of the array is in point `t`'s block of window 5 iff each coordinate is in the block's range on its axis. -/
theorem mem_blk1_5 (t : Fin cfg1.N) (i : S4096x1.Idx) :
    i ∈ ((cfg1.win 5).blk t).view.set ↔ ∀ a : Fin 2, win1_5.index t a * S256x1.size a ≤ (i a).val ∧ (i a).val < win1_5.index t a * S256x1.size a + S256x1.size a := by
  show i ∈ ((View.whole main_v1_2).slice (win1_5.rect t)).set ↔ _
  rw [View.set_slice_whole, Rect.mem_set_unit]
  exact Iff.rfl

/-- Row `r` of window 5's array is in the block of point `r / 256`. -/
theorem covered1_5 (i : S4096x1.Idx) : ∃ t : Fin cfg1.N, (cfg1.win 5).flush t = true ∧ i ∈ ((cfg1.win 5).blk t).view.set := by
  have hi0 : (i 0).val < 4096 := (i 0).isLt
  have hi1 : (i 1).val < 1 := (i 1).isLt
  have hlt : (i 0).val / 256 < cfg1.N := by show _ < grid1.N; rw [N_1]; omega
  obtain ⟨-, -, -, -, -, -, e3, e3', e4, e4', e5, e5'⟩ := idx_facts1 ⟨(i 0).val / 256, hlt⟩
  refine ⟨⟨(i 0).val / 256, hlt⟩, flush1_5 _, ?_⟩
  rw [mem_blk1_5]
  intro a
  match a with
  | ⟨0, _⟩ =>
    show win1_5.index ⟨(i 0).val / 256, hlt⟩ (0 : Fin 2) * 256 ≤ (i 0).val ∧ (i 0).val < win1_5.index ⟨(i 0).val / 256, hlt⟩ (0 : Fin 2) * 256 + 256
    rw [e5]; show (i 0).val / 256 * 256 ≤ (i 0).val ∧ (i 0).val < (i 0).val / 256 * 256 + 256; omega
  | ⟨1, _⟩ =>
    show win1_5.index ⟨(i 0).val / 256, hlt⟩ (1 : Fin 2) * 1 ≤ (i 1).val ∧ (i 1).val < win1_5.index ⟨(i 0).val / 256, hlt⟩ (1 : Fin 2) * 1 + 1
    rw [e5']; omega

/-! ## The arrays after the region -/

/-- The first output after the region: the specification's gated sums, row by row. -/
theorem final1_3 (c : Dev nD) : (dat1 (F := Ideal) V c).arrAt 3 cfg1.N
    = fun j => Cert.Spec.numV (vals1 V c) (V c main_arg0) (V c main_arg1) (j 0) :=
  (dat1 V c).arrAt_eq_of_cover 3 _ (fun t _ => flushed1_3_eq V c t) covered1_3

/-- The second output after the region: the input's row sums. -/
theorem final1_4 (c : Dev nD) : (dat1 (F := Ideal) V c).arrAt 4 cfg1.N
    = fun j => Cert.Spec.rowSum (V c main_arg0) (j 0) :=
  (dat1 V c).arrAt_eq_of_cover 4 _ (fun t _ => flushed1_4_eq V c t) covered1_4

/-- The third output after the region: the target's row sums. -/
theorem final1_5 (c : Dev nD) : (dat1 (F := Ideal) V c).arrAt 5 cfg1.N
    = fun j => Cert.Spec.rowSum (V c main_arg1) (j 0) :=
  (dat1 V c).arrAt_eq_of_cover 5 _ (fun t _ => flushed1_5_eq V c t) covered1_5

end Cert.KernelIdeal.Frm

end
-- ==== Proof.LibSumIdx.lean ====
/-
  Sums over an index set of rank 3, 4 or 5, coordinate by coordinate.

  An index of a shape with literal extents [n0, …] is the tuple of its coordinates (`ValueIdx.ix3` … `ix5`), so the index set
  is in bijection with the product of the coordinate ranges and a sum over it is the nested sum over the coordinates —
  the rank-2 statement of the library (`ValueIdx.sum_idx2`) at ranks 3, 4 and 5, for sums in any commutative monoid.
  A sum over every element of an array (a total reduction) is re-indexed through these before its terms are compared.
-/
import Idealize.ShloMosaic.Lib.ValueIdx

noncomputable section

open scoped BigOperators

namespace Cert.LibSumIdx

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A rank-5 index set is the product of its five coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- A sum over a rank-5 index set is the fivefold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-- A sum over the one element of `Fin 1`. -/
theorem sum_fin1 {M : Type*} [AddCommMonoid M] (f : Fin 1 → M) : ∑ a : Fin 1, f a = f 0 := by
  exact Fin.sum_univ_one f

end Cert.LibSumIdx

end
-- ==== Proof.KI.Value2.lean ====
/-
  Region 2's value at the ideal instance.  The resident (1, 1) output of the region ends holding the double sum over all
  rows n and all columns k of num[n] / (row_in[n] + row_tg[k]) of the three vectors the region reads.  At each grid point
  the body's one store leaves the block's double sum (first point) or the buffer's contents plus it (later points); the
  block of rows at point t is rows 512 t .. 512 t + 511; by induction the buffer after point n holds the sum over the
  blocks 0 .. n; the last point writes the buffer back as the whole array, and the sum over the eight blocks of 512 rows
  is the sum over the 4096 rows.
-/
import proofs.«173938_j1580547974629_1_alg».proof.Proof.KI.Region2
import proofs.«173938_j1580547974629_1_alg».proof.Proof.Spec
import proofs.«173938_j1580547974629_1_alg».proof.Proof.SpecLaws
import proofs.«173938_j1580547974629_1_alg».proof.Proof.LibSumIdx
import proofs.«173938_j1580547974629_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frm

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)

/-! ## What each case's store leaves, at any float instance -/

section AnyInstance

variable {F : FTy → Type} [FloatOps F]

theorem hz2_r2 : (![0, 0] : Fin 2 → Nat) = fun _ => 0 := funext fun a => by fin_cases a <;> rfl

/-- The first point leaves the block's payload. -/
theorem out2_A_3_eq (c : Dev nD) (i : grid2.Coords) (arg1 : Memref sig .tc .vmem S512x1 .f32) (harg1 : arg1.IsWhole) (arg2 : Memref sig .tc .vmem S512x1 .f32) (harg2 : arg2.IsWhole) (arg3 : Memref sig .tc .vmem S1x4096 .f32) (harg3 : arg3.IsWhole) (arg4 : Memref sig .tc .vmem S1x1 .f32) (harg4 : arg4.IsWhole)
    (hc1 : k2_cond1 i = 1#1) (hc2 : ¬ k2_cond2 i = 1#1) (x0 : Vec F S512x1 .f32) (x1 : Vec F S512x1 .f32) (x2 : Vec F S1x4096 .f32) :
    out2_A_3 c i arg1 harg1 arg2 harg2 arg3 harg3 arg4 harg4 hc1 hc2 x0 x1 x2 = k2_pay1 x1 x2 x0 := by
  unfold out2_A_3
  rw [View.read_writes_eq_canon _ _ _ (cover2_A_3 c i arg1 harg1 arg2 harg2 arg3 harg3 arg4 harg4 hc1 hc2 x0 x1 x2)]
  unfold kernelRun2_A
  dsimp only
  sl_unfold_words
  rw [View.canon_unit_zero hz2_r2]
  simp only [View.readAt_eq_ld, harg1.read_unread, harg2.read_unread, harg3.read_unread, View.ld_unit_zero (S := S512x1) hz2_r2, View.ld_unit_zero (S := S1x4096) hz2_r2]

/-- A later point leaves the buffer's contents plus the block's payload. -/
theorem out2_B_3_eq (c : Dev nD) (i : grid2.Coords) (arg1 : Memref sig .tc .vmem S512x1 .f32) (harg1 : arg1.IsWhole) (arg2 : Memref sig .tc .vmem S512x1 .f32) (harg2 : arg2.IsWhole) (arg3 : Memref sig .tc .vmem S1x4096 .f32) (harg3 : arg3.IsWhole) (arg4 : Memref sig .tc .vmem S1x1 .f32) (harg4 : arg4.IsWhole)
    (hc1 : ¬ k2_cond1 i = 1#1) (hc2 : k2_cond2 i = 1#1) (x0 : Vec F S512x1 .f32) (x1 : Vec F S512x1 .f32) (x2 : Vec F S1x4096 .f32) (xo3 : Vec F S1x1 .f32) :
    out2_B_3 c i arg1 harg1 arg2 harg2 arg3 harg3 arg4 harg4 hc1 hc2 x0 x1 x2 xo3 = k2_pay2 x1 x2 x0 xo3 := by
  unfold out2_B_3
  rw [View.read_writes_eq_canon _ _ _ (cover2_B_3 c i arg1 harg1 arg2 harg2 arg3 harg3 arg4 harg4 hc1 hc2 x0 x1 x2 xo3)]
  unfold kernelRun2_B
  dsimp only
  sl_unfold_words
  rw [View.canon_unit_zero hz2_r2]
  simp only [View.readAt_eq_ld, harg1.read_unread, harg2.read_unread, harg3.read_unread, harg4.read_unread, View.ld_unit_zero (S := S512x1) hz2_r2, View.ld_unit_zero (S := S1x4096) hz2_r2, View.ld_unit_zero (S := S1x1) hz2_r2]

end AnyInstance

/-! ## The payloads at the one index, at the ideal instance -/

section AtIdeal

/-- No extended real is ordered-and-different from itself. -/
theorem cmp_one_self_r2 (s : EReal) : Ideal.cmp .one s s = 0#1 := by
  simp [Ideal.cmp]

/-- The block's payload: the double sum of the quotients over the block's 512 rows and the 4096 columns. -/
theorem k2_pay1_apply (v0 : Vec Ideal S512x1 .f32) (v2 : Vec Ideal S1x4096 .f32) (v7 : Vec Ideal S512x1 .f32) :
    k2_pay1 (F := Ideal) v0 v2 v7 (ix2 (0 : Fin 1) (0 : Fin 1))
      = ∑ r : Fin 512, ∑ k : Fin 4096, Ideal.div (v7 (ix2 r (0 : Fin 1))) (v0 (ix2 r (0 : Fin 1)) + v2 (ix2 (0 : Fin 1) k)) := by
  unfold k2_pay1
  dsimp only
  rw [broadcast_apply]
  unfold extractAt
  refine (Ideal.multiReduction_add_total (s := S1x512x4096) (t := S1) _ 0x00000000#32 reduces_S1x512x4096_S1
    (fun b => by fin_cases b; rfl) (.inl rfl) rfl ((Shape.reshapeEquiv shapeCasts_S1_S1x1x1) _)).trans ?_
  rw [Cert.LibSumIdx.sum_idx3, Cert.LibSumIdx.sum_fin1]
  refine Finset.sum_congr rfl fun r _ => Finset.sum_congr rfl fun k _ => ?_
  rw [shapeCast_ab_1ab_apply, select_apply, cmpf_apply, Ideal.cmpf_def, cmp_one_self_r2, select_zero, divf_apply, addf_apply,
    PhysLoss.broadcastTo_a1_ab_apply, PhysLoss.broadcastTo_a1_ab_apply, broadcastTo_1b_ab_apply, shapeCast_self, shapeCast_self,
    shapeCast_self]

/-- A later point's payload: the buffer's contents plus the block's payload. -/
theorem k2_pay2_apply (v0 : Vec Ideal S512x1 .f32) (v2 : Vec Ideal S1x4096 .f32) (v7 : Vec Ideal S512x1 .f32) (v25 : Vec Ideal S1x1 .f32) :
    k2_pay2 (F := Ideal) v0 v2 v7 v25 (ix2 (0 : Fin 1) (0 : Fin 1))
      = v25 (ix2 (0 : Fin 1) (0 : Fin 1)) + k2_pay1 (F := Ideal) v0 v2 v7 (ix2 (0 : Fin 1) (0 : Fin 1)) := by
  unfold k2_pay2
  rw [addf_apply, shapeCast_self]

end AtIdeal

/-! ## The input blocks at an index -/

section Blocks

variable {F : FTy → Type} [FloatOps F]
variable (V : (c : Dev nD) → (b : Ref sig .tc) → Buf (Elt F) ((c : Thread nD τ).loc b))

/-- The printed index maps over the grid: windows 0 and 1 move down one block of rows per point; windows 2 and 3 stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The block of rows point `t` reads. -/
def blockOf2 (t : Fin cfg2.N) : Fin 8 := ⟨t.val, lt_of_lt_of_eq t.isLt N_2⟩

/-- Window 0's block at point `t`, row `r`: row `512 t + r` of the first vector. -/
theorem iblk2_0_apply (c : Dev nD) (t : Fin cfg2.N) (r : Fin 512) :
    (iblk2 V c 0 t : Vec F S512x1 .f32) (ix2 r (0 : Fin 1))
      = V c main_v1_0 (ix2 (Cert.Spec.row8 (blockOf2 t) r) (0 : Fin 1)) := by
  obtain ⟨e0, e1, -⟩ := idx_facts2 t
  unfold iblk2
  rw [View.read_apply]
  show V c main_v1_0 _ = V c main_v1_0 _
  refine congrArg (V c main_v1_0) (funext fun a => Fin.ext ?_)
  match a with
  | ⟨0, _⟩ => show win2_0.index t (0 : Fin 2) * 512 + 1 * r.val = t.val * 512 + r.val; rw [e0]; omega
  | ⟨1, _⟩ => show win2_0.index t (1 : Fin 2) * 1 + 1 * 0 = 0; rw [e1]

/-- Window 1's block at point `t`, row `r`: row `512 t + r` of the second vector. -/
theorem iblk2_1_apply (c : Dev nD) (t : Fin cfg2.N) (r : Fin 512) :
    (iblk2 V c 1 t : Vec F S512x1 .f32) (ix2 r (0 : Fin 1))
      = V c main_v1_1 (ix2 (Cert.Spec.row8 (blockOf2 t) r) (0 : Fin 1)) := by
  obtain ⟨-, -, e0, e1, -⟩ := idx_facts2 t
  unfold iblk2
  rw [View.read_apply]
  show V c main_v1_1 _ = V c main_v1_1 _
  refine congrArg (V c main_v1_1) (funext fun a => Fin.ext ?_)
  match a with
  | ⟨0, _⟩ => show win2_1.index t (0 : Fin 2) * 512 + 1 * r.val = t.val * 512 + r.val; rw [e0]; omega
  | ⟨1, _⟩ => show win2_1.index t (1 : Fin 2) * 1 + 1 * 0 = 0; rw [e1]

/-- Window 2's block at every point is the whole row vector. -/
theorem iblk2_2_apply (c : Dev nD) (t : Fin cfg2.N) (k : Fin 4096) :
    (iblk2 V c 2 t : Vec F S1x4096 .f32) (ix2 (0 : Fin 1) k) = V c main_v2 (ix2 (0 : Fin 1) k) := by
  obtain ⟨-, -, -, -, e0, e1, -⟩ := idx_facts2 t
  unfold iblk2
  rw [View.read_apply]
  show V c main_v2 _ = V c main_v2 _
  refine congrArg (V c main_v2) (funext fun a => Fin.ext ?_)
  match a with
  | ⟨0, _⟩ => show win2_2.index t (0 : Fin 2) * 1 + 1 * 0 = 0; rw [e0]
  | ⟨1, _⟩ => show win2_2.index t (1 : Fin 2) * 4096 + 1 * k.val = k.val; rw [e1]; omega

/-- What the output buffer holds after a first point: the block's payload. -/
theorem outsAt2_first (c : Dev nD) (t : Fin cfg2.N) (h0 : t.val % 8 = 0) :
    outsAt2 V c t.val t.isLt = k2_pay1 (iblk2 V c 1 t) (iblk2 V c 2 t) (iblk2 V c 0 t) :=
  (outsAt2_A V c t h0).trans
    (out2_A_3_eq c (grid2.coords t) (ms2_0 t) (hs2_0 t) (ms2_1 t) (hs2_1 t) (ms2_2 t) (hs2_2 t) (ms2_3 t) (hs2_3 t)
      ((hcond2_1 t).mpr h0) (fun h => (hcond2_2 t).mp h h0) (iblk2 V c 0 t) (iblk2 V c 1 t) (iblk2 V c 2 t))

/-- What the output buffer holds after a later point: what the point before left, plus the block's payload. -/
theorem outsAt2_later (c : Dev nD) (t : Fin cfg2.N) (h0 : ¬t.val % 8 = 0) :
    outsAt2 V c t.val t.isLt = k2_pay2 (iblk2 V c 1 t) (iblk2 V c 2 t) (iblk2 V c 0 t)
      (outsAt2 V c (t.val - 1) (Nat.lt_of_le_of_lt (Nat.sub_le _ _) t.isLt)) :=
  (outsAt2_B V c t h0).trans
    (out2_B_3_eq c (grid2.coords t) (ms2_0 t) (hs2_0 t) (ms2_1 t) (hs2_1 t) (ms2_2 t) (hs2_2 t) (ms2_3 t) (hs2_3 t)
      (fun h => h0 ((hcond2_1 t).mp h)) ((hcond2_2 t).mpr h0) (iblk2 V c 0 t) (iblk2 V c 1 t) (iblk2 V c 2 t)
      (outsAt2 V c (t.val - 1) (Nat.lt_of_le_of_lt (Nat.sub_le _ _) t.isLt)))

end Blocks

/-! ## The running total -/

section Total

variable (V : (c : Dev nD) → (b : Ref sig .tc) → Buf (Elt Ideal) ((c : Thread nD τ).loc b))

/-- The double sum of the quotients `nu n / (ri n + rt k)` over the rows `n` of block `i` and all columns `k`. -/
def blockTotal2 (nu ri rt : Fin 4096 → EReal) (i : Fin 8) : EReal :=
  ∑ r : Fin 512, ∑ k : Fin 4096, Ideal.div (nu (Cert.Spec.row8 i r)) (ri (Cert.Spec.row8 i r) + rt k)

/-- The block total of the three vectors the region reads. -/
def blockSum2 (c : Dev nD) (i : Fin 8) : EReal :=
  blockTotal2 (fun n => V c main_v1_0 (ix2 n (0 : Fin 1))) (fun n => V c main_v1_1 (ix2 n (0 : Fin 1)))
    (fun k => V c main_v2 (ix2 (0 : Fin 1) k)) i

/-- The payload of point `t`'s blocks is the block sum of its block of rows. -/
theorem k2_pay1_blocks (c : Dev nD) (t : Fin cfg2.N) :
    k2_pay1 (F := Ideal) (iblk2 V c 1 t) (iblk2 V c 2 t) (iblk2 V c 0 t) (ix2 (0 : Fin 1) (0 : Fin 1))
      = blockSum2 V c (blockOf2 t) := by
  rw [k2_pay1_apply]
  unfold blockSum2 blockTotal2
  refine Finset.sum_congr rfl fun r _ => Finset.sum_congr rfl fun k _ => ?_
  rw [iblk2_0_apply, iblk2_1_apply, iblk2_2_apply]

/-- The blocks up to block 0 are block 0. -/
theorem filter_fin8_zero2 : (Finset.univ.filter fun i : Fin 8 => i.val ≤ 0) = {(0 : Fin 8)} := by
  ext i
  simp only [Finset.mem_filter, Finset.mem_univ, true_and, Finset.mem_singleton, Fin.ext_iff]
  show i.val ≤ 0 ↔ i.val = 0
  omega

/-- After point `n` the output buffer holds the sum of the block sums of blocks 0 .. n. -/
theorem outsAt2_apply (c : Dev nD) : ∀ (n : ℕ) (hn : n < cfg2.N),
    outsAt2 V c n hn (ix2 (0 : Fin 1) (0 : Fin 1))
      = ∑ i ∈ Finset.univ.filter (fun i : Fin 8 => i.val ≤ n), blockSum2 V c i
  | 0, hn => by
    have h := outsAt2_first V c ⟨0, hn⟩ rfl
    have h' : outsAt2 V c 0 hn (ix2 (0 : Fin 1) (0 : Fin 1))
        = k2_pay1 (F := Ideal) (iblk2 V c 1 ⟨0, hn⟩) (iblk2 V c 2 ⟨0, hn⟩) (iblk2 V c 0 ⟨0, hn⟩) (ix2 (0 : Fin 1) (0 : Fin 1)) :=
      congrFun h _
    rw [h', k2_pay1_blocks, filter_fin8_zero2, Finset.sum_singleton]
    rfl
  | n + 1, hn => by
    have hN : cfg2.N = 8 := N_2
    have hB : ¬(⟨n + 1, hn⟩ : Fin cfg2.N).val % 8 = 0 := by dsimp only; omega
    have h := outsAt2_later V c ⟨n + 1, hn⟩ hB
    have h' : outsAt2 V c (n + 1) hn (ix2 (0 : Fin 1) (0 : Fin 1))
        = k2_pay2 (F := Ideal) (iblk2 V c 1 ⟨n + 1, hn⟩) (iblk2 V c 2 ⟨n + 1, hn⟩) (iblk2 V c 0 ⟨n + 1, hn⟩)
            (outsAt2 V c n (Nat.lt_of_succ_lt hn)) (ix2 (0 : Fin 1) (0 : Fin 1)) :=
      congrFun h _
    rw [h', k2_pay2_apply, k2_pay1_blocks, outsAt2_apply c n, Cert.Spec.sum_fin8_succ _ n (by omega)]
    rfl

end Total

/-! ## The array the region leaves -/

section Final

variable (V : (c : Dev nD) → (b : Ref sig .tc) → Buf (Elt Ideal) ((c : Thread nD τ).loc b))

theorem lastPoint2 : (7 : ℕ) < cfg2.N := by rw [show cfg2.N = 8 from N_2]; decide

/-- The (1, 1) shape has one index. -/
theorem idx11_eq2 (j : S1x1.Idx) : j = ix2 (0 : Fin 1) (0 : Fin 1) := by
  funext a; apply Fin.ext
  match a with
  | ⟨0, _⟩ => have : (j 0).val < 1 := (j 0).isLt; show (j 0).val = 0; omega
  | ⟨1, _⟩ => have : (j 1).val < 1 := (j 1).isLt; show (j 1).val = 0; omega

/-- What the output buffer holds after the last point, as contents of the result array (its one block is the array). -/
abbrev result2 (c : Dev nD) : Buf (Elt Ideal) ((c : Thread nD τ).loc main_v3) := outsAt2 V c 7 lastPoint2

/-- After the last point the buffer holds the double sum over all rows and columns. -/
theorem result2_eq (c : Dev nD) : result2 V c = fun _ => Cert.Spec.totalV (fun n => V c main_v1_0 (ix2 n (0 : Fin 1)))
    (fun n => V c main_v1_1 (ix2 n (0 : Fin 1))) (fun k => V c main_v2 (ix2 (0 : Fin 1) k)) := by
  funext j
  rw [idx11_eq2 j]
  show outsAt2 V c 7 lastPoint2 (ix2 (0 : Fin 1) (0 : Fin 1)) = _
  rw [outsAt2_apply, Finset.filter_true_of_mem (fun i _ => by have := i.isLt; omega)]
  unfold Cert.Spec.totalV
  rw [Cert.Spec.sum_blocks8]
  rfl

/-- The one write-back, at the last point, writes the buffer: the block is the whole (1, 1) array. -/
theorem flushed2_3_eq (c : Dev nD) (t : Fin cfg2.N) (hf : (cfg2.win 3).flush t = true) :
    (dat2 V c).flushed 3 t = ((cfg2.win 3).blk t).view.read (Elt Ideal) (result2 V c) := by
  have hN : cfg2.N = 8 := N_2
  have h7 : t.val = 7 := by have := (flush2_3 t).mp hf; have := t.isLt; omega
  obtain rfl : t = t2_7 := Fin.ext h7
  show (cfg2.win 3).cut (grid2.coords t2_7) ((dat2 V c).after 3 t2_7) = _
  rw [after2_3]
  have hz' : (fun a => win2_3.index t2_7 a * main_v3.ty.shape.size a) = fun _ => 0 := funext fun a => by fin_cases a <;> decide
  exact (Memref.read_access_unit_zero (Elt Ideal) main_v3 hz' (fun a => by rw [congrFun hz' a]; simp) (result2 V c)).symm

/-- The result array of the region ends holding the double sum of the quotients. -/
theorem final2_3 (c : Dev nD) : (dat2 (F := Ideal) V c).arrAt 3 cfg2.N
    = fun _ => Cert.Spec.totalV (fun n => V c main_v1_0 (ValueIdx.ix2 n (0 : Fin 1)))
        (fun n => V c main_v1_1 (ValueIdx.ix2 n (0 : Fin 1))) (fun k => V c main_v2 (ValueIdx.ix2 (0 : Fin 1) k)) :=
  ((dat2 V c).arrAt_eq_of_cover 3 (result2 V c) (flushed2_3_eq V c) fun i =>
    ⟨t2_7, (flush2_3 t2_7).mpr rfl, by
      show i ∈ ((View.whole main_v3).slice (win2_3.rect t2_7)).set
      rw [View.set_slice_whole, Rect.mem_set_unit]
      intro a
      have h0 : (i 0 : Nat) < 1 := (i 0).isLt
      have h1 : (i 1 : Nat) < 1 := (i 1).isLt
      match a with
      | ⟨0, _⟩ => show win2_3.index t2_7 0 * win2_3.size 0 ≤ (i 0 : Nat) ∧ (i 0 : Nat) < win2_3.index t2_7 0 * win2_3.size 0 + win2_3.xsize (grid2.coords t2_7) 0
                  rw [show win2_3.index t2_7 0 * win2_3.size 0 = 0 from by decide +kernel, show win2_3.xsize (grid2.coords t2_7) 0 = 1 from by decide +kernel]; omega
      | ⟨1, _⟩ => show win2_3.index t2_7 1 * win2_3.size 1 ≤ (i 1 : Nat) ∧ (i 1 : Nat) < win2_3.index t2_7 1 * win2_3.size 1 + win2_3.xsize (grid2.coords t2_7) 1
                  rw [show win2_3.index t2_7 1 * win2_3.size 1 = 0 from by decide +kernel, show win2_3.xsize (grid2.coords t2_7) 1 = 1 from by decide +kernel]; omega⟩).trans
    (result2_eq V c)

end Final

end Cert.KernelIdeal.Frm

end
-- ==== Proof.KI.Chain.lean ====
/- The kernel's result through the five boundaries of @main, on the extended reals, from what each region's output
   windows hold at the region's exit (taken here as hypotheses, one per output window, at any entry contents).
   Region 0 leaves the column maxima of the target; region 1, entered from them and the two arguments, leaves the
   doubled gated sums of minima and the two vectors of row sums; the transpose turns the target's row sums into a row;
   region 2, entered from the three vectors, leaves the double sum of quotients; the last stretch reads it as a
   scalar and divides by the constant. Each step is a small lemma over the boundary contents' names: an output
   window's array by the region's exit equation, any other buffer by what the segment leaves alone. -/
import proofs.«173938_j1580547974629_1_alg».proof.Proof.KI.Run
import proofs.«173938_j1580547974629_1_alg».proof.Proof.Spec
import Idealize.ShloMosaic.Lib.ValueLayout
import Idealize.ShloMosaic.Lib.Pipeline.Value
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- A shape cast of a constant array is the constant array. -/
theorem shapeCast_const {s t : Shape} {α : Type} (a : α) (h : s.ShapeCasts t) :
    shapeCast t (fun _ : s.Idx => a) h = fun _ => a := rfl

/-! ## Region 1's entry: the arguments as launched, the column maxima from region 0 -/

theorem V1_main_arg0 (c : Dev nD) : V1 m ρ c main_arg0 = m ((c : Thread nD τ).loc main_arg0) :=
  (W1_of_ne m ρ c main_arg0 (by decide)).trans rfl

theorem V1_main_arg1 (c : Dev nD) : V1 m ρ c main_arg1 = m ((c : Thread nD τ).loc main_arg1) :=
  (W1_arr m ρ c 0).trans ((((dat0 (V0 m ρ) c).arrAt_in 0 rfl _).trans (A_eq0 (V0 m ρ) c 0)).trans rfl)

theorem V1_main_v0
    (h0 : ∀ (V : (c : Dev nD) → (b : Ref sig .tc) → Buf (Elt Ideal) ((c : Thread nD τ).loc b)) (c : Dev nD),
      (dat0 (F := Ideal) V c).arrAt 1 cfg0.N = fun j => Cert.Spec.colMax (V c main_arg1) (j 1))
    (c : Dev nD) :
    V1 m ρ c main_v0 = fun j => Cert.Spec.colMax (m ((c : Thread nD τ).loc main_arg1)) (j 1) :=
  (W1_arr m ρ c 1).trans (h0 (V0 m ρ) c)

/-! ## Region 1's exit: its three output columns -/

/-- The thresholds region 1 reads are the target's column maxima. -/
theorem V1_main_v0_row
    (h0 : ∀ (V : (c : Dev nD) → (b : Ref sig .tc) → Buf (Elt Ideal) ((c : Thread nD τ).loc b)) (c : Dev nD),
      (dat0 (F := Ideal) V c).arrAt 1 cfg0.N = fun j => Cert.Spec.colMax (V c main_arg1) (j 1))
    (c : Dev nD) :
    (fun n : Fin 4096 => V1 m ρ c main_v0 (ValueIdx.ix2 (0 : Fin 1) n)) = Cert.Spec.colMax (m ((c : Thread nD τ).loc main_arg1)) := by
  rw [V1_main_v0 m ρ h0 c]
  rfl

theorem W2_main_v1_0
    (h0 : ∀ (V : (c : Dev nD) → (b : Ref sig .tc) → Buf (Elt Ideal) ((c : Thread nD τ).loc b)) (c : Dev nD),
      (dat0 (F := Ideal) V c).arrAt 1 cfg0.N = fun j => Cert.Spec.colMax (V c main_arg1) (j 1))
    (h13 : ∀ (V : (c : Dev nD) → (b : Ref sig .tc) → Buf (Elt Ideal) ((c : Thread nD τ).loc b)) (c : Dev nD),
      (dat1 (F := Ideal) V c).arrAt 3 cfg1.N = fun j => Cert.Spec.numV (fun n => V c main_v0 (ValueIdx.ix2 (0 : Fin 1) n)) (V c main_arg0) (V c main_arg1) (j 0))
    (c : Dev nD) :
    W2 m ρ c (Proc.devRef .tc main_v1_0)
      = fun j => Cert.Spec.numV (Cert.Spec.colMax (m ((c : Thread nD τ).loc main_arg1))) (m ((c : Thread nD τ).loc main_arg0)) (m ((c : Thread nD τ).loc main_arg1)) (j 0) := by
  have e := (W2_arr m ρ c 3).trans (h13 (V1 m ρ) c)
  rw [V1_main_v0_row m ρ h0 c, V1_main_arg0 m ρ c, V1_main_arg1 m ρ c] at e
  exact e

theorem W2_main_v1_1
    (h14 : ∀ (V : (c : Dev nD) → (b : Ref sig .tc) → Buf (Elt Ideal) ((c : Thread nD τ).loc b)) (c : Dev nD),
      (dat1 (F := Ideal) V c).arrAt 4 cfg1.N = fun j => Cert.Spec.rowSum (V c main_arg0) (j 0))
    (c : Dev nD) :
    W2 m ρ c (Proc.devRef .tc main_v1_1) = fun j => Cert.Spec.rowSum (m ((c : Thread nD τ).loc main_arg0)) (j 0) := by
  have e := (W2_arr m ρ c 4).trans (h14 (V1 m ρ) c)
  rw [V1_main_arg0 m ρ c] at e
  exact e

theorem W2_main_v1_2
    (h15 : ∀ (V : (c : Dev nD) → (b : Ref sig .tc) → Buf (Elt Ideal) ((c : Thread nD τ).loc b)) (c : Dev nD),
      (dat1 (F := Ideal) V c).arrAt 5 cfg1.N = fun j => Cert.Spec.rowSum (V c main_arg1) (j 0))
    (c : Dev nD) :
    W2 m ρ c (Proc.devRef .tc main_v1_2) = fun j => Cert.Spec.rowSum (m ((c : Thread nD τ).loc main_arg1)) (j 0) := by
  have e := (W2_arr m ρ c 5).trans (h15 (V1 m ρ) c)
  rw [V1_main_arg1 m ρ c] at e
  exact e

/-! ## Region 2's entry: the two columns as region 1 left them, the target's row sums as a row -/

theorem V3_main_v1_0 (c : Dev nD) : V3 m ρ c main_v1_0 = W2 m ρ c (Proc.devRef .tc main_v1_0) :=
  W3_of_ne m ρ c main_v1_0 (by decide)

theorem V3_main_v1_1 (c : Dev nD) : V3 m ρ c main_v1_1 = W2 m ρ c (Proc.devRef .tc main_v1_1) :=
  W3_of_ne m ρ c main_v1_1 (by decide)

theorem V3_main_v1_0_col
    (h0 : ∀ (V : (c : Dev nD) → (b : Ref sig .tc) → Buf (Elt Ideal) ((c : Thread nD τ).loc b)) (c : Dev nD),
      (dat0 (F := Ideal) V c).arrAt 1 cfg0.N = fun j => Cert.Spec.colMax (V c main_arg1) (j 1))
    (h13 : ∀ (V : (c : Dev nD) → (b : Ref sig .tc) → Buf (Elt Ideal) ((c : Thread nD τ).loc b)) (c : Dev nD),
      (dat1 (F := Ideal) V c).arrAt 3 cfg1.N = fun j => Cert.Spec.numV (fun n => V c main_v0 (ValueIdx.ix2 (0 : Fin 1) n)) (V c main_arg0) (V c main_arg1) (j 0))
    (c : Dev nD) :
    (fun n : Fin 4096 => V3 m ρ c main_v1_0 (ValueIdx.ix2 n (0 : Fin 1)))
      = Cert.Spec.numV (Cert.Spec.colMax (m ((c : Thread nD τ).loc main_arg1))) (m ((c : Thread nD τ).loc main_arg0)) (m ((c : Thread nD τ).loc main_arg1)) := by
  rw [V3_main_v1_0 m ρ c, W2_main_v1_0 m ρ h0 h13 c]
  rfl

theorem V3_main_v1_1_col
    (h14 : ∀ (V : (c : Dev nD) → (b : Ref sig .tc) → Buf (Elt Ideal) ((c : Thread nD τ).loc b)) (c : Dev nD),
      (dat1 (F := Ideal) V c).arrAt 4 cfg1.N = fun j => Cert.Spec.rowSum (V c main_arg0) (j 0))
    (c : Dev nD) :
    (fun n : Fin 4096 => V3 m ρ c main_v1_1 (ValueIdx.ix2 n (0 : Fin 1))) = Cert.Spec.rowSum (m ((c : Thread nD τ).loc main_arg0)) := by
  rw [V3_main_v1_1 m ρ c, W2_main_v1_1 m ρ h14 c]
  rfl

/-- The transposed column read at `(0, k)` is the column at `(k, 0)`. -/
theorem V3_main_v2_row
    (h15 : ∀ (V : (c : Dev nD) → (b : Ref sig .tc) → Buf (Elt Ideal) ((c : Thread nD τ).loc b)) (c : Dev nD),
      (dat1 (F := Ideal) V c).arrAt 5 cfg1.N = fun j => Cert.Spec.rowSum (V c main_arg1) (j 0))
    (c : Dev nD) :
    (fun k : Fin 4096 => V3 m ρ c main_v2 (ValueIdx.ix2 (0 : Fin 1) k)) = Cert.Spec.rowSum (m ((c : Thread nD τ).loc main_arg1)) := by
  funext k
  have e := congrFun (W3_main_v2 m ρ c) (ValueIdx.ix2 (0 : Fin 1) k)
  rw [W2_main_v1_2 m ρ h15 c] at e
  exact e.trans (ValueIdx.transpose_ix2_apply _ transposes_S4096x1_S1x4096_1_0 (0 : Fin 1) k)

/-! ## Region 2's exit, and the return -/

theorem W4_main_v3
    (h0 : ∀ (V : (c : Dev nD) → (b : Ref sig .tc) → Buf (Elt Ideal) ((c : Thread nD τ).loc b)) (c : Dev nD),
      (dat0 (F := Ideal) V c).arrAt 1 cfg0.N = fun j => Cert.Spec.colMax (V c main_arg1) (j 1))
    (h13 : ∀ (V : (c : Dev nD) → (b : Ref sig .tc) → Buf (Elt Ideal) ((c : Thread nD τ).loc b)) (c : Dev nD),
      (dat1 (F := Ideal) V c).arrAt 3 cfg1.N = fun j => Cert.Spec.numV (fun n => V c main_v0 (ValueIdx.ix2 (0 : Fin 1) n)) (V c main_arg0) (V c main_arg1) (j 0))
    (h14 : ∀ (V : (c : Dev nD) → (b : Ref sig .tc) → Buf (Elt Ideal) ((c : Thread nD τ).loc b)) (c : Dev nD),
      (dat1 (F := Ideal) V c).arrAt 4 cfg1.N = fun j => Cert.Spec.rowSum (V c main_arg0) (j 0))
    (h15 : ∀ (V : (c : Dev nD) → (b : Ref sig .tc) → Buf (Elt Ideal) ((c : Thread nD τ).loc b)) (c : Dev nD),
      (dat1 (F := Ideal) V c).arrAt 5 cfg1.N = fun j => Cert.Spec.rowSum (V c main_arg1) (j 0))
    (h23 : ∀ (V : (c : Dev nD) → (b : Ref sig .tc) → Buf (Elt Ideal) ((c : Thread nD τ).loc b)) (c : Dev nD),
      (dat2 (F := Ideal) V c).arrAt 3 cfg2.N = fun _ => Cert.Spec.totalV (fun n => V c main_v1_0 (ValueIdx.ix2 n (0 : Fin 1))) (fun n => V c main_v1_1 (ValueIdx.ix2 n (0 : Fin 1))) (fun k => V c main_v2 (ValueIdx.ix2 (0 : Fin 1) k)))
    (c : Dev nD) :
    W4 m ρ c (Proc.devRef .tc main_v3)
      = fun _ => Cert.Spec.totalV (Cert.Spec.numV (Cert.Spec.colMax (m ((c : Thread nD τ).loc main_arg1))) (m ((c : Thread nD τ).loc main_arg0)) (m ((c : Thread nD τ).loc main_arg1))) (Cert.Spec.rowSum (m ((c : Thread nD τ).loc main_arg0))) (Cert.Spec.rowSum (m ((c : Thread nD τ).loc main_arg1))) := by
  have e := (W4_arr m ρ c 3).trans (h23 (V3 m ρ) c)
  rw [V3_main_v1_0_col m ρ h0 h13 c, V3_main_v1_1_col m ρ h14 c, V3_main_v2_row m ρ h15 c] at e
  exact e

/-- THE RESULT: the returned scalar is the specification's value at the two arguments as launched. -/
theorem result_of_finals
    (h0 : ∀ (V : (c : Dev nD) → (b : Ref sig .tc) → Buf (Elt Ideal) ((c : Thread nD τ).loc b)) (c : Dev nD),
      (dat0 (F := Ideal) V c).arrAt 1 cfg0.N = fun j => Cert.Spec.colMax (V c main_arg1) (j 1))
    (h13 : ∀ (V : (c : Dev nD) → (b : Ref sig .tc) → Buf (Elt Ideal) ((c : Thread nD τ).loc b)) (c : Dev nD),
      (dat1 (F := Ideal) V c).arrAt 3 cfg1.N = fun j => Cert.Spec.numV (fun n => V c main_v0 (ValueIdx.ix2 (0 : Fin 1) n)) (V c main_arg0) (V c main_arg1) (j 0))
    (h14 : ∀ (V : (c : Dev nD) → (b : Ref sig .tc) → Buf (Elt Ideal) ((c : Thread nD τ).loc b)) (c : Dev nD),
      (dat1 (F := Ideal) V c).arrAt 4 cfg1.N = fun j => Cert.Spec.rowSum (V c main_arg0) (j 0))
    (h15 : ∀ (V : (c : Dev nD) → (b : Ref sig .tc) → Buf (Elt Ideal) ((c : Thread nD τ).loc b)) (c : Dev nD),
      (dat1 (F := Ideal) V c).arrAt 5 cfg1.N = fun j => Cert.Spec.rowSum (V c main_arg1) (j 0))
    (h23 : ∀ (V : (c : Dev nD) → (b : Ref sig .tc) → Buf (Elt Ideal) ((c : Thread nD τ).loc b)) (c : Dev nD),
      (dat2 (F := Ideal) V c).arrAt 3 cfg2.N = fun _ => Cert.Spec.totalV (fun n => V c main_v1_0 (ValueIdx.ix2 n (0 : Fin 1))) (fun n => V c main_v1_1 (ValueIdx.ix2 n (0 : Fin 1))) (fun k => V c main_v2 (ValueIdx.ix2 (0 : Fin 1) k)))
    (c : Dev nD) :
    (W5 m ρ c (Proc.devRef .tc main_v5) : (⟨S_, .f32⟩ : BufTy).Contents (Elt Ideal))
      = fun _ => Cert.Spec.result (m ((c : Thread nD τ).loc main_arg0)) (m ((c : Thread nD τ).loc main_arg1)) := by
  rw [W5_main_v5 m ρ c, W4_main_v3 m ρ h0 h13 h14 h15 h23 c, shapeCast_const]
  rfl

end Cert.KernelIdeal.Frm

end
-- ==== Proof.Ref.lean ====
/-
  The reference program computes the specification: its one result, read at its one index, is `Cert.Spec.result`
  of the two argument arrays.

  The stages are read in order. The column maximum is a fold of `max` from the bottom element over the rows, which is
  the supremum over the rows; the gate, the gated sums, the two row sums and the quotient array are read entry by
  entry; the `where` that replaces an entry different from itself keeps every entry (no extended real differs from
  itself); the total is the double sum over rows and columns of the quotients; the result is the total divided by 2^24.
  The reference writes `0.55 * v` where the specification writes `v * 0.55`, a negation where the specification
  subtracts from zero, and starts each sum from the zero word.
-/
import proofs.«173938_j1580547974629_1_alg».proof.Proof.Gen.ReferenceIdeal.Read
import proofs.«173938_j1580547974629_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- The arrays the reference reads: 4096 x 4096 extended reals. -/
abbrev Arr : Type := (⟨S4096x4096, .f32⟩ : BufTy).Contents (Elt Ideal)

/-! ## The column maximum -/

/-- The reduced index `q` with row `k` put back is (k, q). -/
theorem lift_rows (h : S4096x4096.Reduces [0] S4096) (q : Fin 4096) (k : Fin (S4096x4096.size 0)) :
    h.lift (ix1 q) k = ix2 (⟨k.val, k.isLt⟩ : Fin 4096) q := by
  funext c; apply Fin.ext
  fin_cases c <;> rfl

/-- The word 0xFF800000 is the bottom element. -/
theorem negInf_eq_bot : Ideal.ofBits .f32 0xFF800000#32 = (⊥ : EReal) := by
  simp [Ideal.ofBits, Ideal.ieee]

/-- The reference's first stage at column `q`: the largest entry of the column. -/
theorem colMax_apply (x1 : Arr) (q : Fin 4096) : val_main_v0 (F := Ideal) x1 (ix1 q) = colMax x1 q := by
  have h : S4096x4096.Reduces [0] S4096 := by decide
  unfold val_main_v0
  refine (Host.reduce_eq_fold_single (α := EReal) (FloatOps.maximumf (F := Ideal) (φ := .f32)) x1 (val_main_cst (F := Ideal))
    reducesTo_S4096x4096_S4096_d0 h h_S_ (ix1 q)).trans ?_
  have hf : (x1 ∘ h.lift (ix1 q)) = fun k : Fin 4096 => x1 (ix2 k q) :=
    funext fun k => congrArg x1 (lift_rows h q k)
  have hb : val_main_cst (F := Ideal) (Shape.Idx.first h_S_) = (⊥ : EReal) := negInf_eq_bot
  rw [hb]
  exact congrArg (fun f => Finset.fold max (⊥ : EReal) f (Finset.univ : Finset (Fin 4096))) hf

/-! ## The gate -/

/-- No extended real differs from itself. -/
theorem cmp_une_self (s : EReal) : Ideal.cmp .une s s = 0#1 := by
  simp [Ideal.cmp]

/-- The reference's gate at entry (n, w): the logistic gate of the specification against the column maxima. -/
theorem gate_apply (x1 : Arr) (n w : Fin 4096) :
    val_main_v14 (F := Ideal) x1 (ix2 n w) = gateV (colMax x1) x1 n w := by
  have e : idx_main_v2 (idx_main_v5 (ix2 n w)) = ix1 n :=
    funext fun a => Fin.ext (by match a with | ⟨0, _⟩ => rfl)
  rw [val_main_v14_apply, val_main_v13_apply, val_main_cst_3_apply, val_main_v12_apply, val_main_v11_apply,
    val_main_cst_2_apply, val_main_v10_apply, val_main_v9_apply, val_main_v8_apply, val_main_v7_apply,
    val_main_cst_1_apply, val_main_v6_apply, val_main_v5_apply, val_main_v4_apply, val_main_v3_apply,
    val_main_cst_0_apply, val_main_v2_apply, e, colMax_apply]
  simp only [Ideal.ofBits_def, Ideal.hostDivf_def, Ideal.addf_def, Ideal.hostUnary_exp_def, Ideal.hostNegf_def,
    Ideal.negf_def, Ideal.mulf_def, Ideal.subf_def]
  unfold gateV c1 c100 c055
  rw [zero_sub, mul_comm (colMax x1 n)]

/-! ## The three row statistics -/

/-- The reference's numerator at row `n`. -/
theorem num_apply (x0 x1 : Arr) (n : Fin 4096) :
    val_main_v18 (F := Ideal) x0 x1 (ix1 n) = numV (colMax x1) x0 x1 n := by
  have hs : ∀ k : Fin 4096, val_main_v15 (F := Ideal) x0 x1 (idx_main_v16 (ix1 n) k)
      = min (x0 (ix2 n k)) (x1 (ix2 n k)) * gateV (colMax x1) x1 n k := by
    intro k
    have e : idx_main_v16 (ix1 n) k = ix2 n k :=
      funext fun a => Fin.ext (by match a with | ⟨0, _⟩ => rfl | ⟨1, _⟩ => rfl)
    rw [e, val_main_v15_apply, val_main_v1_apply, gate_apply]
    rfl
  rw [val_main_v18_apply, val_main_v17_apply, val_main_cst_5_apply, val_main_v16_apply, val_main_cst_4_apply,
    Finset.sum_congr rfl fun k _ => hs k]
  simp only [Ideal.ofBits_def, Ideal.mulf_def, Ideal.ofBits_zero_f32, zero_add]
  rfl

/-- The reference's sum of row `n` of the input. -/
theorem rowIn_apply (x0 : Arr) (n : Fin 4096) : val_main_v19 (F := Ideal) x0 (ix1 n) = rowSum x0 n := by
  have e : ∀ k : Fin 4096, idx_main_v19 (ix1 n) k = ix2 n k := fun k =>
    funext fun a => Fin.ext (by match a with | ⟨0, _⟩ => rfl | ⟨1, _⟩ => rfl)
  rw [val_main_v19_apply, val_main_cst_6_apply, Finset.sum_congr rfl fun k _ => congrArg x0 (e k)]
  simp only [Ideal.ofBits_def, Ideal.ofBits_zero_f32, zero_add]
  rfl

/-- The reference's sum of row `n` of the target. -/
theorem rowTg_apply (x1 : Arr) (n : Fin 4096) : val_main_v20 (F := Ideal) x1 (ix1 n) = rowSum x1 n := by
  have e : ∀ k : Fin 4096, idx_main_v20 (ix1 n) k = ix2 n k := fun k =>
    funext fun a => Fin.ext (by match a with | ⟨0, _⟩ => rfl | ⟨1, _⟩ => rfl)
  rw [val_main_v20_apply, val_main_cst_7_apply, Finset.sum_congr rfl fun k _ => congrArg x1 (e k)]
  simp only [Ideal.ofBits_def, Ideal.ofBits_zero_f32, zero_add]
  rfl

/-! ## The quotient array, the total and the result -/

/-- The reference's quotient at entry (n, k). -/
theorem quot_apply (x0 x1 : Arr) (n k : Fin 4096) :
    val_main_v28 (F := Ideal) x0 x1 (ix2 n k)
      = Ideal.div (numV (colMax x1) x0 x1 n) (rowSum x0 n + rowSum x1 k) := by
  have e1 : idx_main_v26 (idx_main_v27 (ix2 n k)) = ix1 n :=
    funext fun a => Fin.ext (by match a with | ⟨0, _⟩ => rfl)
  have e2 : idx_main_v21 (idx_main_v23 (ix2 n k)) = ix1 n :=
    funext fun a => Fin.ext (by match a with | ⟨0, _⟩ => rfl)
  have e3 : idx_main_v22 (idx_main_v24 (ix2 n k)) = ix1 k :=
    funext fun a => Fin.ext (by match a with | ⟨0, _⟩ => rfl)
  rw [val_main_v28_apply, val_main_v27_apply, val_main_v26_apply, e1, num_apply, val_main_v25_apply,
    val_main_v23_apply, val_main_v21_apply, e2, rowIn_apply, val_main_v24_apply, val_main_v22_apply, e3, rowTg_apply]
  rfl

/-- The `where` keeps every quotient. -/
theorem where_apply (x0 x1 : Arr) (i : S4096x4096.Idx) :
    val_main_v30 (F := Ideal) x0 x1 i = val_main_v28 (F := Ideal) x0 x1 i := by
  rw [val_main_v30_apply, val_main_v29_apply, Ideal.cmpf_def, cmp_une_self, select_zero]

/-- The reference's total: the double sum of the quotients. -/
theorem total_apply (x0 x1 : Arr) (i : S_.Idx) :
    val_main_v31 (F := Ideal) x0 x1 i = totalV (numV (colMax x1) x0 x1) (rowSum x0) (rowSum x1) := by
  rw [val_main_v31_apply, val_main_cst_9_apply, Finset.sum_congr rfl fun j _ => where_apply x0 x1 j, sum_idx2,
    Finset.sum_congr rfl fun n _ => Finset.sum_congr rfl fun k _ => quot_apply x0 x1 n k]
  simp only [Ideal.ofBits_def, Ideal.ofBits_zero_f32, zero_add]
  rfl

/-- The reference computes the specification. -/
theorem ref_eq (x0 x1 : (⟨Cert.ReferenceIdeal.S4096x4096, .f32⟩ : BufTy).Contents (Elt Ideal)) :
    Cert.ReferenceIdeal.Read.val_main_v32 (F := Ideal) x0 x1 = fun _ => Cert.Spec.result x0 x1 := by
  funext i
  rw [val_main_v32_apply, total_apply, val_main_cst_10_apply]
  rfl

end Cert.ReferenceIdeal.RefValue

end
-- ==== Proof.lean ====
/-
  The certificate of the masked-loss kernel against its jnp reference.

  Both programs compute, from a 4096 x 4096 input and target, the mean over (n, k) of num[n] / (rowIn[n] + rowTg[k]),
  where num[n] is twice the sum over w of min(input[n,w], target[n,w]) / (1 + exp(-100 (target[n,w] - 0.55 colMax[n]))),
  colMax[q] is the largest entry of column q of the target, and rowIn / rowTg are the row sums of input and target.
  The kernel does it in three grid regions: a running column maximum over eight blocks of 512 rows; the three row
  statistics per block of 256 rows; and a running total of the quotients over eight blocks of 512 rows, followed by the
  division by 2^24 on the host.  On the extended reals a maximum over 4096 rows is the maximum over eight blocks of the
  maxima over 512 rows, and a sum over 4096 rows is the sum over eight blocks of the sums over 512 rows, in any
  commutative monoid; 0 - x is -x; and the comparison of a value with itself is false, so the NaN guard is the identity.
  No finiteness of the inputs is used.

  The frames: each kernel program's run is followed region by region, every unscoped buffer named at every boundary;
  the arguments are read back unchanged.  The reference's frame is its run with the result dropped.
-/
import proofs.«173938_j1580547974629_1_alg».proof.Defs
import proofs.«173938_j1580547974629_1_alg».proof.Proof.Gen.Kernel
import proofs.«173938_j1580547974629_1_alg».proof.Proof.Gen.KernelIdeal
import proofs.«173938_j1580547974629_1_alg».proof.Proof.Gen.ReferenceIdeal
import proofs.«173938_j1580547974629_1_alg».proof.Proof.Gen.Pre_finite_inputs
import proofs.«173938_j1580547974629_1_alg».proof.Proof.Gen.ReferenceIdeal.Run
import proofs.«173938_j1580547974629_1_alg».proof.Proof.Gen.ReferenceIdeal.Read
import proofs.«173938_j1580547974629_1_alg».proof.Proof.K.Run
import proofs.«173938_j1580547974629_1_alg».proof.Proof.KI.Run
import proofs.«173938_j1580547974629_1_alg».proof.Proof.KI.Value0
import proofs.«173938_j1580547974629_1_alg».proof.Proof.KI.Value1
import proofs.«173938_j1580547974629_1_alg».proof.Proof.KI.Value2
import proofs.«173938_j1580547974629_1_alg».proof.Proof.KI.Chain
import proofs.«173938_j1580547974629_1_alg».proof.Proof.Ref
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Frm.frame (F := Bits) m ρ

/-- The idealized kernel runs and leaves its arguments unchanged. -/
theorem frame_ki : Cert.frame_KernelIdeal := fun m ρ _ => Cert.KernelIdeal.Frm.frame (F := Ideal) m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result buffer after the run holds the specification's value of the launch arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Frm.W5 m ρ c (Proc.devRef .tc Cert.KernelIdeal.main_v5) : (⟨Cert.KernelIdeal.S_, .f32⟩ : BufTy).Contents (Elt Ideal))
      = fun _ => Cert.Spec.result (m ((c : Thread Cert.KernelIdeal.nD Cert.KernelIdeal.τ).loc Cert.KernelIdeal.main_arg0)) (m ((c : Thread Cert.KernelIdeal.nD Cert.KernelIdeal.τ).loc Cert.KernelIdeal.main_arg1)) :=
  Cert.KernelIdeal.Frm.result_of_finals m ρ
    (fun V c => Cert.KernelIdeal.Frm.final0_1 V c)
    (fun V c => Cert.KernelIdeal.Frm.final1_3 V c)
    (fun V c => Cert.KernelIdeal.Frm.final1_4 V c)
    (fun V c => Cert.KernelIdeal.Frm.final1_5 V c)
    (fun V c => Cert.KernelIdeal.Frm.final2_3 V c) c

/-- At the extended reals the two programs, run from memories agreeing on the arguments, end with the same result:
    both are the specification's value of the arguments. -/
theorem algebraic : Cert.algebraic_KernelIdeal_ReferenceIdeal := by
  intro m ρ m' ρ' _ hagree
  refine ⟨fun c => fun _ => Cert.Spec.result (m ((c : Thread Cert.KernelIdeal.nD Cert.KernelIdeal.τ).loc Cert.KernelIdeal.main_arg0)) (m ((c : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Frm.run_all (F := Ideal) m ρ)
    · exact (h c _ (Cert.KernelIdeal.Frm.mem_uc Cert.KernelIdeal.main_v5 (by decide))).trans (kernel_result m ρ c)
    · exact (h c _ (Cert.KernelIdeal.Frm.mem_uc Cert.KernelIdeal.main_arg0 (by decide))).trans (Cert.KernelIdeal.Frm.W5_main_arg0 m ρ c)
    · exact (h c _ (Cert.KernelIdeal.Frm.mem_uc Cert.KernelIdeal.main_arg1 (by decide))).trans (Cert.KernelIdeal.Frm.W5_main_arg1 m ρ c)
  · refine (θ_run Cert.ReferenceIdeal.defs _ _).mono (fun _ h c => ⟨?_, (h c).2⟩) (Cert.ReferenceIdeal.Value.run (F := Ideal) m' ρ')
    rw [(h c).1, Cert.ReferenceIdeal.Read.val_main_v32_eq, Cert.ReferenceIdeal.RefValue.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
